-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x256 : Shape := ⟨2, ![20000, 256]⟩
abbrev S2x320000 : Shape := ⟨2, ![2, 320000]⟩
abbrev S256x256 : Shape := ⟨2, ![256, 256]⟩
abbrev S256 : Shape := ⟨1, ![256]⟩
abbrev S256x3 : Shape := ⟨2, ![256, 3]⟩
abbrev S3 : Shape := ⟨1, ![3]⟩
abbrev S_ : Shape := ⟨0, ![]⟩

class Facts : Prop where
  bcast_S_S20000x256 : S_.BroadcastsInDim S20000x256 (![] : Fin 0 → Fin S20000x256.rank)
  reducesTo_S20000x256_S_d0_1 : S20000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x3 : S_.BroadcastsInDim S256x3 (![] : Fin 0 → Fin S256x3.rank)
  reducesTo_S256x3_S_d0_1 : S256x3.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg8 : FVec F S256x3 .f32) (main_arg9 : FVec F S3 .f32) (main_v33 : IVec S_ 1) : IVec S_ 1 :=
  let main_v34 : FVec F S256x3 .f32 := Host.absf main_arg8
  let main_cst_12 : FVec F S_ .f32 := constant S_ .f32 0x7F800000#32
  let main_v35 : FVec F S256x3 .f32 := broadcastInDim S256x3 ![] bcast_S_S256x3 main_cst_12
  let main_v36 : IVec S256x3 1 := cmpf .olt main_v34 main_v35
  let main_c_13 : IVec S_ 1 := constantI S_ 1 1#1
  let main_v37 : IVec S_ 1 := (fun x v => Host.reduce IntOp.andi x v reducesTo_S256x3_S_d0_1 h_S_) main_v36 main_c_13
  let main_v38 : IVec S_ 1 := andi main_v33 main_v37
  let main_v39 : FVec F S3 .f32 := Host.absf main_arg9
  let main_cst_14 : FVec F S_ .f32 := constant S_ .f32 0x7F800000#32
  let main_v40 : FVec F S3 .f32 := broadcastInDim S3 ![] bcast_S_S3 main_cst_14
  let main_v41 : IVec S3 1 := cmpf .olt main_v39 main_v40
  let main_c_15 : IVec S_ 1 := constantI S_ 1 1#1
  let main_v42 : IVec S_ 1 := (fun x v => Host.reduce IntOp.andi x v reducesTo_S3_S_d0 h_S_) main_v41 main_c_15
  let main_v43 : IVec S_ 1 := andi main_v38 main_v42
  main_v43

def fn_part1 {F : FTy → Type} [FloatOps F] (main_arg5 : FVec F S256 .f32) (main_arg6 : FVec F S256x256 .f32) (main_arg7 : FVec F S256 .f32) (main_arg8 : FVec F S256x3 .f32) (main_arg9 : FVec F S3 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_v33

def fn {F : FTy → Type} [FloatOps F] (main_arg0 : FVec F S20000x256 .f32) (main_arg1 : IVec S2x320000 32) (main_arg2 : FVec F S256x256 .f32) (main_arg3 : FVec F S256 .f32) (main_arg4 : FVec F S256x256 .f32) (main_arg5 : FVec F S256 .f32) (main_arg6 : FVec F S256x256 .f32) (main_arg7 : FVec F S256 .f32) (main_arg8 : FVec F S256x3 .f32) (main_arg9 : FVec F S3 .f32) : IVec S_ 1 :=
  let main_v0 : FVec F S20000x256 .f32 := Host.absf main_arg0
  let main_cst : FVec F S_ .f32 := constant S_ .f32 0x7F800000#32
  let main_v1 : FVec F S20000x256 .f32 := broadcastInDim S20000x256 ![] bcast_S_S20000x256 main_cst
  let main_v2 : IVec S20000x256 1 := cmpf .olt main_v0 main_v1
  let main_c : IVec S_ 1 := constantI S_ 1 1#1
  let main_v3 : IVec S_ 1 := (fun x v => Host.reduce IntOp.andi x v reducesTo_S20000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_arg9 main_v13 main_v16
-- ==== Kernel.lean ====
abbrev S20000x256 : Shape := ⟨2, ![20000, 256]⟩
abbrev S2x320000 : Shape := ⟨2, ![2, 320000]⟩
abbrev S256x256 : Shape := ⟨2, ![256, 256]⟩
abbrev S256 : Shape := ⟨1, ![256]⟩
abbrev S256x3 : Shape := ⟨2, ![256, 3]⟩
abbrev S3 : Shape := ⟨1, ![3]⟩
abbrev S20000 : Shape := ⟨1, ![20000]⟩
abbrev S1x320000 : Shape := ⟨2, ![1, 320000]⟩
abbrev S320000 : Shape := ⟨1, ![320000]⟩
abbrev S340000 : Shape := ⟨1, ![340000]⟩
abbrev S_ : Shape := ⟨0, ![]⟩
abbrev S340000x1 : Shape := ⟨2, ![340000, 1]⟩
abbrev S1x256 : Shape := ⟨2, ![1, 256]⟩
abbrev S4000x256 : Shape := ⟨2, ![4000, 256]⟩
abbrev S340000x256 : Shape := ⟨2, ![340000, 256]⟩
abbrev S1x3 : Shape := ⟨2, ![1, 3]⟩
abbrev S20000x3 : Shape := ⟨2, ![20000, 3]⟩
abbrev S4000x3 : Shape := ⟨2, ![4000, 3]⟩

abbrev nBuf : Space → Nat
  | .hbm => 121
  | .vmem => 22
  | .smem => 0
  | _ => 0

abbrev bufTy : (tb : Table) → Fin (tcTables nBuf tb) → BufTy
  | .hbm, ⟨0, _⟩ => ⟨S20000x256, .f32⟩
  | .hbm, ⟨1, _⟩ => ⟨S2x320000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x3, .f32⟩
  | .hbm, ⟨9, _⟩ => ⟨S3, .f32⟩
  | .hbm, ⟨10, _⟩ => ⟨S20000, .i32⟩
  | .hbm, ⟨11, _⟩ => ⟨S1x320000, .i32⟩
  | .hbm, ⟨12, _⟩ => ⟨S320000, .i32⟩
  | .hbm, ⟨13, _⟩ => ⟨S340000, .i32⟩
  | .hbm, ⟨14, _⟩ => ⟨S1x320000, .i32⟩
  | .hbm, ⟨15, _⟩ => ⟨S320000, .i32⟩
  | .hbm, ⟨16, _⟩ => ⟨S340000, .i32⟩
  | .hbm, ⟨17, _⟩ => ⟨S_, .f32⟩
  | .hbm, ⟨18, _⟩ => ⟨S20000, .f32⟩
  | .hbm, ⟨19, _⟩ => ⟨S_, .i32⟩
  | .hbm, ⟨20, _⟩ => ⟨S340000, .i32⟩
  | .hbm, ⟨21, _⟩ => ⟨S340000, .i1⟩
  | .hbm, ⟨22, _⟩ => ⟨S_, .i32⟩
  | .hbm, ⟨23, _⟩ => ⟨S340000, .i32⟩
  | .hbm, ⟨24, _⟩ => ⟨S340000, .i32⟩
  | .hbm, ⟨25, _⟩ => ⟨S340000, .i32⟩
  | .hbm, ⟨26, _⟩ => ⟨S340000x1, .i32⟩
  | .hbm, ⟨27, _⟩ => ⟨S_, .f32⟩
  | .hbm, ⟨28, _⟩ => ⟨S340000, .f32⟩
  | .hbm, ⟨29, _⟩ => ⟨S20000, .f32⟩
  | .hbm, ⟨30, _⟩ => ⟨S20000, .f32⟩
  | .hbm, ⟨31, _⟩ => ⟨S20000x256, .bf16⟩
  | .hbm, ⟨32, _⟩ => ⟨S256x256, .bf16⟩
  | .hbm, ⟨33, _⟩ => ⟨S1x256, .f32⟩
  | .hbm, ⟨34, _⟩ => ⟨S20000x256, .f32⟩
  | .hbm, ⟨35, _⟩ => ⟨S20000x256, .bf16⟩
  | .hbm, ⟨36, _⟩ => ⟨S256x256, .bf16⟩
  | .hbm, ⟨37, _⟩ => ⟨S20000x256, .f32⟩
  | .hbm, ⟨38, _⟩ => ⟨S_, .i32⟩
  | .hbm, ⟨39, _⟩ => ⟨S340000, .i32⟩
  | .hbm, ⟨40, _⟩ => ⟨S340000, .i1⟩
  | .hbm, ⟨41, _⟩ => ⟨S_, .i32⟩
  | .hbm, ⟨42, _⟩ => ⟨S340000, .i32⟩
  | .hbm, ⟨43, _⟩ => ⟨S340000, .i32⟩
  | .hbm, ⟨44, _⟩ => ⟨S340000, .i32⟩
  | .hbm, ⟨45, _⟩ => ⟨S340000x1, .i32⟩
  | .hbm, ⟨46, _⟩ => ⟨S340000, .f32⟩
  | .hbm, ⟨47, _⟩ => ⟨S_, .i32⟩
  | .hbm, ⟨48, _⟩ => ⟨S340000, .i32⟩
  | .hbm, ⟨49, _⟩ => ⟨S340000, .i1⟩
  | .hbm, ⟨50, _⟩ => ⟨S_, .i32⟩
  | .hbm, ⟨51, _⟩ => ⟨S340000, .i32⟩
  | .hbm, ⟨52, _⟩ => ⟨S340000, .i32⟩
  | .hbm, ⟨53, _⟩ => ⟨S340000, .i32⟩
  | .hbm, ⟨54, _⟩ => ⟨S340000x1, .i32⟩
  | .hbm, ⟨55, _⟩ => ⟨S340000, .f32⟩
  | .hbm, ⟨56, _⟩ => ⟨S340000, .f32⟩
  | .hbm, ⟨57, _⟩ => ⟨S_, .i32⟩
  | .hbm, ⟨58, _⟩ => ⟨S340000, .i32⟩
  | .hbm, ⟨59, _⟩ => ⟨S340000, .i1⟩
  | .hbm, ⟨60, _⟩ => ⟨S_, .i32⟩
  | .hbm, ⟨61, _⟩ => ⟨S340000, .i32⟩
  | .hbm, ⟨62, _⟩ => ⟨S340000, .i32⟩
  | .hbm, ⟨63, _⟩ => ⟨S340000, .i32⟩
  | .hbm, ⟨64, _⟩ => ⟨S340000x1, .i32⟩
  | .hbm, ⟨65, _⟩ => ⟨S340000x256, .f32⟩
  | .hbm, ⟨66, _⟩ => ⟨S340000x1, .f32⟩
  | .hbm, ⟨67, _⟩ => ⟨S340000x256, .f32⟩
  | .hbm, ⟨68, _⟩ => ⟨S340000x256, .f32⟩
  | .hbm, ⟨69, _⟩ => ⟨S_, .f32⟩
  | .hbm, ⟨70, _⟩ => ⟨S20000x256, .f32⟩
  | .hbm, ⟨71, _⟩ => ⟨S340000x1, .i32⟩
  | .hbm, ⟨72, _⟩ => ⟨S20000x256, .f32⟩
  | .hbm, ⟨73, _⟩ => ⟨S1x256, .f32⟩
  | .hbm, ⟨74, _⟩ => ⟨S20000x256, .f32⟩
  | .hbm, ⟨75, _⟩ => ⟨S20000x256, .f32⟩
  | .hbm, ⟨76, _⟩ => ⟨S20000x256, .bf16⟩
  | .hbm, ⟨77, _⟩ => ⟨S256x256, .bf16⟩
  | .hbm, ⟨78, _⟩ => ⟨S20000x256, .f32⟩
  | .hbm, ⟨79, _⟩ => ⟨S_, .i32⟩
  | .hbm, ⟨80, _⟩ => ⟨S340000, .i32⟩
  | .hbm, ⟨81, _⟩ => ⟨S340000, .i1⟩
  | .hbm, ⟨82, _⟩ => ⟨S_, .i32⟩
  | .hbm, ⟨83, _⟩ => ⟨S340000, .i32⟩
  | .hbm, ⟨84, _⟩ => ⟨S340000, .i32⟩
  | .hbm, ⟨85, _⟩ => ⟨S340000, .i32⟩
  | .hbm, ⟨86, _⟩ => ⟨S340000x1, .i32⟩
  | .hbm, ⟨87, _⟩ => ⟨S340000, .f32⟩
  | .hbm, ⟨88, _⟩ => ⟨S_, .i32⟩
  | .hbm, ⟨89, _⟩ => ⟨S340000, .i32⟩
  | .hbm, ⟨90, _⟩ => ⟨S340000, .i1⟩
  | .hbm, ⟨91, _⟩ => ⟨S_, .i32⟩
  | .hbm, ⟨92, _⟩ => ⟨S340000, .i32⟩
  | .hbm, ⟨93, _⟩ => ⟨S340000, .i32⟩
  | .hbm, ⟨94, _⟩ => ⟨S340000, .i32⟩
  | .hbm, ⟨95, _⟩ => ⟨S340000x1, .i32⟩
  | .hbm, ⟨96, _⟩ => ⟨S340000, .f32⟩
  | .hbm, ⟨97, _⟩ => ⟨S340000, .f32⟩
  | .hbm, ⟨98, _⟩ => ⟨S_, .i32⟩
  | .hbm, ⟨99, _⟩ => ⟨S340000, .i32⟩
  | .hbm, ⟨100, _⟩ => ⟨S340000, .i1⟩
  | .hbm, ⟨101, _⟩ => ⟨S_, .i32⟩
  | .hbm, ⟨102, _⟩ => ⟨S340000, .i32⟩
  | .hbm, ⟨103, _⟩ => ⟨S340000, .i32⟩
  | .hbm, ⟨104, _⟩ => ⟨S340000, .i32⟩
  | .hbm, ⟨105, _⟩ => ⟨S340000x1, .i32⟩
  | .hbm, ⟨106, _⟩ => ⟨S340000x256, .f32⟩
  | .hbm, ⟨107, _⟩ => ⟨S340000x1, .f32⟩
  | .hbm, ⟨108, _⟩ => ⟨S340000x256, .f32⟩
  | .hbm, ⟨109, _⟩ => ⟨S340000x256, .f32⟩
  | .hbm, ⟨110, _⟩ => ⟨S_, .f32⟩
  | .hbm, ⟨111, _⟩ => ⟨S20000x256, .f32⟩
  | .hbm, ⟨112, _⟩ => ⟨S340000x1, .i32⟩
  | .hbm, ⟨113, _⟩ => ⟨S20000x256, .f32⟩
  | .hbm, ⟨114, _⟩ => ⟨S1x256, .f32⟩
  | .hbm, ⟨115, _⟩ => ⟨S20000x256, .f32⟩
  | .hbm, ⟨116, _⟩ => ⟨S20000x256, .f32⟩
  | .hbm, ⟨117, _⟩ => ⟨S20000x256, .bf16⟩
  | .hbm, ⟨118, _⟩ => ⟨S256x3, .bf16⟩
  | .hbm, ⟨119, _⟩ => ⟨S1x3, .f32⟩
  | .hbm, ⟨120, _⟩ => ⟨S20000x3, .f32⟩
  | .local _ .vmem, ⟨0, _⟩ => ⟨S4000x256, .bf16⟩
  | .local _ .vmem, ⟨1, _⟩ => ⟨S4000x256, .bf16⟩
  | .local _ .vmem, ⟨2, _⟩ => ⟨S256x256, .bf16⟩
  | .local _ .vmem, ⟨3, _⟩ => ⟨S1x256, .f32⟩
  | .local _ .vmem, ⟨4, _⟩ => ⟨S4000x256, .f32⟩
  | .local _ .vmem, ⟨5, _⟩ => ⟨S4000x256, .f32⟩
  | .local _ .vmem, ⟨6, _⟩ => ⟨S4000x256, .bf16⟩
  | .local _ .vmem, ⟨7, _⟩ => ⟨S4000x256, .bf16⟩
  | .local _ .vmem, ⟨8, _⟩ => ⟨S256x256, .bf16⟩
  | .local _ .vmem, ⟨9, _⟩ => ⟨S4000x256, .f32⟩
  | .local _ .vmem, ⟨10, _⟩ => ⟨S4000x256, .f32⟩
  | .local _ .vmem, ⟨11, _⟩ => ⟨S4000x256, .bf16⟩
  | .local _ .vmem, ⟨12, _⟩ => ⟨S4000x256, .bf16⟩
  | .local _ .vmem, ⟨13, _⟩ => ⟨S256x256, .bf16⟩
  | .local _ .vmem, ⟨14, _⟩ => ⟨S4000x256, .f32⟩
  | .local _ .vmem, ⟨15, _⟩ => ⟨S4000x256, .f32⟩
  | .local _ .vmem, ⟨16, _⟩ => ⟨S4000x256, .bf16⟩
  | .local _ .vmem, ⟨17, _⟩ => ⟨S4000x256, .bf16⟩
  | .local _ .vmem, ⟨18, _⟩ => ⟨S256x3, .bf16⟩
  | .local _ .vmem, ⟨19, _⟩ => ⟨S1x3, .f32⟩
  | .local _ .vmem, ⟨20, _⟩ => ⟨S4000x3, .f32⟩
  | .local _ .vmem, ⟨21, _⟩ => ⟨S4000x3, .f32⟩
  | _, _ => ⟨S20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_2 : Ref sig .tc := ⟨.hbm, 38, rfl⟩
abbrev main_v24 : Ref sig .tc := ⟨.hbm, 39, rfl⟩
abbrev main_v25 : Ref sig .tc := ⟨.hbm, 40, rfl⟩
abbrev main_c_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_4 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_6 : Ref sig .tc := ⟨.hbm, 57, rfl⟩
abbrev main_v39 : Ref sig .tc := ⟨.hbm, 58, rfl⟩
abbrev main_v40 : Ref sig .tc := ⟨.hbm, 59, rfl⟩
abbrev main_c_7 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_8 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_9 : Ref sig .tc := ⟨.hbm, 79, rfl⟩
abbrev main_v58 : Ref sig .tc := ⟨.hbm, 80, rfl⟩
abbrev main_v59 : Ref sig .tc := ⟨.hbm, 81, rfl⟩
abbrev main_c_10 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_c_11 : Ref sig .tc := ⟨.hbm, 88, rfl⟩
abbrev main_v65 : Ref sig .tc := ⟨.hbm, 89, rfl⟩
abbrev main_v66 : Ref sig .tc := ⟨.hbm, 90, rfl⟩
abbrev main_c_12 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_c_13 : Ref sig .tc := ⟨.hbm, 98, rfl⟩
abbrev main_v73 : Ref sig .tc := ⟨.hbm, 99, rfl⟩
abbrev main_v74 : Ref sig .tc := ⟨.hbm, 100, rfl⟩
abbrev main_c_14 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_15 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x3 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x3 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S4000x3 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x320000_S1x320000_0_0 : S2x320000.Slices ![0, 0] S1x320000
  shapeCasts_S1x320000_S320000 : S1x320000.ShapeCasts S320000
  concatenates_S320000_S20000_S340000_d0 : Shape.Concatenates [S320000, S20000] S340000 0
  slices_S2x320000_S1x320000_1_0 : S2x320000.Slices ![1, 0] S1x320000
  bcast_S_S20000 : S_.BroadcastsInDim S20000 (![] : Fin 0 → Fin S20000.rank)
  bcast_S_S340000 : S_.BroadcastsInDim S340000 (![] : Fin 0 → Fin S340000.rank)
  bcast_S340000_S340000x1_0 : S340000.BroadcastsInDim S340000x1 (![0] : Fin 1 → Fin S340000x1.rank)
  bitsLt_bf16_f32 : FTy.bits .bf16 < FTy.bits .f32
  shapeCasts_S256_S1x256 : S256.ShapeCasts S1x256
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  bcast_S340000x1_S340000x256_0_1 : S340000x1.BroadcastsInDim S340000x256 (![0, 1] : Fin 2 → Fin S340000x256.rank)
  bcast_S_S20000x256 : S_.BroadcastsInDim S20000x256 (![] : Fin 0 → Fin S20000x256.rank)
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  shapeCasts_S3_S1x3 : S3.ShapeCasts S1x3
  inb_S256x3_S256x3_0_0 : ∀ a, (![0, 0] : Fin 2 → Nat) a + S256x3.size a ≤ S256x3.size a
  h_S256x3 : 0 < S256x3.numel
  shapeCasts_S256x3_S256x3 : S256x3.ShapeCasts S256x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S4000x3 : S1x3.Broadcasts S4000x3
  inb_S4000x3_S4000x3_0_0 : ∀ a, (![0, 0] : Fin 2 → Nat) a + S4000x3.size a ≤ S4000x3.size a
  h_S4000x3 : 0 < S4000x3.numel
  scatter_S20000_S340000x1_S340000_n_0_0_1_wf : ScatterDims.WF S20000 S340000x1 S340000 [] [0] [0] 1
  dot_S4000x256_S256x256_S4000x256_1_0_0_1_n_n_wf : DotDims.WF S4000x256 S256x256 S4000x256 [1] [0] [0] [1] [] []
  gather_S20000_S340000x1_S340000_n_0_n_n_0_1_1_wf : GatherDims.WF S20000 S340000x1 S340000 [] [0] [] [0] [] 1 ![1]
  gather_S20000x256_S340000x1_S340000x256_1_0_n_n_0_1_1256_wf : GatherDims.WF S20000x256 S340000x1 S340000x256 [1] [0] [] [0] [] 1 ![1, 256]
  scatter_S20000x256_S340000x1_S340000x256_1_0_0_1_wf : ScatterDims.WF S20000x256 S340000x1 S340000x256 [1] [0] [0] 1
  dot_S4000x256_S256x3_S4000x3_1_0_0_1_n_n_wf : DotDims.WF S4000x256 S256x3 S4000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S20000x256.size a
  hwx0_0 : ∀ i : grid0.Coords, EltTy.bits .bf16 = 32 ∨ (Rect.block (s := S20000x256) S4000x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x256.size a ≤ S20000x256.size a
  hwx0_3 : ∀ i : grid0.Coords, EltTy.bits .f32 = 32 ∨ (Rect.block (s := S20000x256) S4000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x256.size a ≤ S20000x256.size a
  hwx1_0 : ∀ i : grid1.Coords, EltTy.bits .bf16 = 32 ∨ (Rect.block (s := S20000x256) S4000x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .bf16 = 32 ∨ (Rect.block (s := S256x256) S256x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x256.size a ≤ S20000x256.size a
  hwx1_2 : ∀ i : grid1.Coords, EltTy.bits .f32 = 32 ∨ (Rect.block (s := S20000x256) S4000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x256.size a ≤ S20000x256.size a
  hwx2_0 : ∀ i : grid2.Coords, EltTy.bits .bf16 = 32 ∨ (Rect.block (s := S20000x256) S4000x256.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .bf16 = 32 ∨ (Rect.block (s := S256x256) S256x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x256.size a ≤ S20000x256.size a
  hwx2_2 : ∀ i : grid2.Coords, EltTy.bits .f32 = 32 ∨ (Rect.block (s := S20000x256) S4000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x256.size a ≤ S20000x256.size a
  hwx3_0 : ∀ i : grid3.Coords, EltTy.bits .bf16 = 32 ∨ (Rect.block (s := S20000x256) S4000x256.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x3.size a ≤ S256x3.size a
  hwx3_1 : ∀ i : grid3.Coords, EltTy.bits .bf16 = 32 ∨ (Rect.block (s := S256x3) S256x3.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x3.size a ≤ S1x3.size a
  hwx3_2 : ∀ i : grid3.Coords, EltTy.bits .f32 = 32 ∨ (Rect.block (s := S1x3) S1x3.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x3.size a ≤ S20000x3.size a
  hwx3_3 : ∀ i : grid3.Coords, EltTy.bits .f32 = 32 ∨ (Rect.block (s := S20000x3) S4000x3.size (cc3_transform_3 i) (hinb3_3 i)).WholeWords (EltTy.packing .f32)

variable [Facts₀]

def scatter_S20000_S340000x1_S340000_n_0_0_1 : ScatterDims S20000 S340000x1 S340000 where
  updateWindowDims := []
  insertedWindowDims := [0]
  scatterDimsToOperandDims := [0]
  indexVectorDim := 1
  wf := scatter_S20000_S340000x1_S340000_n_0_0_1_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def gather_S20000_S340000x1_S340000_n_0_n_n_0_1_1 : GatherDims S20000 S340000x1 S340000 where
  offsetDims := []
  collapsedSliceDims := [0]
  operandBatchingDims := []
  startIndicesBatchingDims := []
  startIndexMap := [0]
  indexVectorDim := 1
  sliceSizes := ![1]
  wf := gather_S20000_S340000x1_S340000_n_0_n_n_0_1_1_wf
def gather_S20000x256_S340000x1_S340000x256_1_0_n_n_0_1_1256 : GatherDims S20000x256 S340000x1 S340000x256 where
  offsetDims := [1]
  collapsedSliceDims := [0]
  operandBatchingDims := []
  startIndicesBatchingDims := []
  startIndexMap := [0]
  indexVectorDim := 1
  sliceSizes := ![1, 256]
  wf := gather_S20000x256_S340000x1_S340000x256_1_0_n_n_0_1_1256_wf
def scatter_S20000x256_S340000x1_S340000x256_1_0_0_1 : ScatterDims S20000x256 S340000x1 S340000x256 where
  updateWindowDims := [1]
  insertedWindowDims := [0]
  scatterDimsToOperandDims := [0]
  indexVectorDim := 1
  wf := scatter_S20000x256_S340000x1_S340000x256_1_0_0_1_wf
def dot_S4000x256_S256x3_S4000x3_1_0_0_1_n_n : DotDims S4000x256 S256x3 S4000x3 where
  lhsContracting := [1]
  rhsContracting := [0]
  lhsNonContracting := [0]
  rhsNonContracting := [1]
  lhsBatch := []
  rhsBatch := []
  wf := dot_S4000x256_S256x3_S4000x3_1_0_0_1_n_n_wf

abbrev win0_0 : Pipeline.Window sig grid0 :=
  Pipeline.Window.ofSpec (Memref.whole main_v17) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S4000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v21) S4000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v23) S4000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v55) S4000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v57) S4000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v89) S4000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v90) S256x3.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v91) S1x3.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v92) S4000x3.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S20000x256 : Shape := ⟨2, ![20000, 256]⟩
abbrev S2x320000 : Shape := ⟨2, ![2, 320000]⟩
abbrev S256x256 : Shape := ⟨2, ![256, 256]⟩
abbrev S256 : Shape := ⟨1, ![256]⟩
abbrev S256x3 : Shape := ⟨2, ![256, 3]⟩
abbrev S3 : Shape := ⟨1, ![3]⟩
abbrev S20000 : Shape := ⟨1, ![20000]⟩
abbrev S1x320000 : Shape := ⟨2, ![1, 320000]⟩
abbrev S320000 : Shape := ⟨1, ![320000]⟩
abbrev S340000 : Shape := ⟨1, ![340000]⟩
abbrev S_ : Shape := ⟨0, ![]⟩
abbrev S340000x1 : Shape := ⟨2, ![340000, 1]⟩
abbrev S1x256 : Shape := ⟨2, ![1, 256]⟩
abbrev S340000x256 : Shape := ⟨2, ![340000, 256]⟩
abbrev S20000x3 : Shape := ⟨2, ![20000, 3]⟩
abbrev S1x3 : Shape := ⟨2, ![1, 3]⟩

abbrev nBuf : Space → Nat
  | .hbm => 120
  | .vmem => 0
  | .smem => 0
  | _ => 0

abbrev bufTy : (tb : Table) → Fin (tcTables nBuf tb) → BufTy
  | .hbm, ⟨0, _⟩ => ⟨S20000x256, .f32⟩
  | .hbm, ⟨1, _⟩ => ⟨S2x320000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x3, .f32⟩
  | .hbm, ⟨9, _⟩ => ⟨S3, .f32⟩
  | .hbm, ⟨10, _⟩ => ⟨S20000, .i32⟩
  | .hbm, ⟨11, _⟩ => ⟨S1x320000, .i32⟩
  | .hbm, ⟨12, _⟩ => ⟨S320000, .i32⟩
  | .hbm, ⟨13, _⟩ => ⟨S340000, .i32⟩
  | .hbm, ⟨14, _⟩ => ⟨S1x320000, .i32⟩
  | .hbm, ⟨15, _⟩ => ⟨S320000, .i32⟩
  | .hbm, ⟨16, _⟩ => ⟨S340000, .i32⟩
  | .hbm, ⟨17, _⟩ => ⟨S_, .f32⟩
  | .hbm, ⟨18, _⟩ => ⟨S20000, .f32⟩
  | .hbm, ⟨19, _⟩ => ⟨S_, .i32⟩
  | .hbm, ⟨20, _⟩ => ⟨S340000, .i32⟩
  | .hbm, ⟨21, _⟩ => ⟨S340000, .i1⟩
  | .hbm, ⟨22, _⟩ => ⟨S_, .i32⟩
  | .hbm, ⟨23, _⟩ => ⟨S340000, .i32⟩
  | .hbm, ⟨24, _⟩ => ⟨S340000, .i32⟩
  | .hbm, ⟨25, _⟩ => ⟨S340000, .i32⟩
  | .hbm, ⟨26, _⟩ => ⟨S340000x1, .i32⟩
  | .hbm, ⟨27, _⟩ => ⟨S_, .f32⟩
  | .hbm, ⟨28, _⟩ => ⟨S340000, .f32⟩
  | .hbm, ⟨29, _⟩ => ⟨S20000, .f32⟩
  | .hbm, ⟨30, _⟩ => ⟨S20000, .f32⟩
  | .hbm, ⟨31, _⟩ => ⟨S20000x256, .f32⟩
  | .hbm, ⟨32, _⟩ => ⟨S1x256, .f32⟩
  | .hbm, ⟨33, _⟩ => ⟨S20000x256, .f32⟩
  | .hbm, ⟨34, _⟩ => ⟨S20000x256, .f32⟩
  | .hbm, ⟨35, _⟩ => ⟨S_, .f32⟩
  | .hbm, ⟨36, _⟩ => ⟨S20000x256, .f32⟩
  | .hbm, ⟨37, _⟩ => ⟨S20000x256, .f32⟩
  | .hbm, ⟨38, _⟩ => ⟨S20000x256, .f32⟩
  | .hbm, ⟨39, _⟩ => ⟨S_, .i32⟩
  | .hbm, ⟨40, _⟩ => ⟨S340000, .i32⟩
  | .hbm, ⟨41, _⟩ => ⟨S340000, .i1⟩
  | .hbm, ⟨42, _⟩ => ⟨S_, .i32⟩
  | .hbm, ⟨43, _⟩ => ⟨S340000, .i32⟩
  | .hbm, ⟨44, _⟩ => ⟨S340000, .i32⟩
  | .hbm, ⟨45, _⟩ => ⟨S340000, .i32⟩
  | .hbm, ⟨46, _⟩ => ⟨S340000x1, .i32⟩
  | .hbm, ⟨47, _⟩ => ⟨S340000, .f32⟩
  | .hbm, ⟨48, _⟩ => ⟨S_, .i32⟩
  | .hbm, ⟨49, _⟩ => ⟨S340000, .i32⟩
  | .hbm, ⟨50, _⟩ => ⟨S340000, .i1⟩
  | .hbm, ⟨51, _⟩ => ⟨S_, .i32⟩
  | .hbm, ⟨52, _⟩ => ⟨S340000, .i32⟩
  | .hbm, ⟨53, _⟩ => ⟨S340000, .i32⟩
  | .hbm, ⟨54, _⟩ => ⟨S340000, .i32⟩
  | .hbm, ⟨55, _⟩ => ⟨S340000x1, .i32⟩
  | .hbm, ⟨56, _⟩ => ⟨S340000, .f32⟩
  | .hbm, ⟨57, _⟩ => ⟨S340000, .f32⟩
  | .hbm, ⟨58, _⟩ => ⟨S_, .i32⟩
  | .hbm, ⟨59, _⟩ => ⟨S340000, .i32⟩
  | .hbm, ⟨60, _⟩ => ⟨S340000, .i1⟩
  | .hbm, ⟨61, _⟩ => ⟨S_, .i32⟩
  | .hbm, ⟨62, _⟩ => ⟨S340000, .i32⟩
  | .hbm, ⟨63, _⟩ => ⟨S340000, .i32⟩
  | .hbm, ⟨64, _⟩ => ⟨S340000, .i32⟩
  | .hbm, ⟨65, _⟩ => ⟨S340000x1, .i32⟩
  | .hbm, ⟨66, _⟩ => ⟨S340000x256, .f32⟩
  | .hbm, ⟨67, _⟩ => ⟨S340000x1, .f32⟩
  | .hbm, ⟨68, _⟩ => ⟨S340000x256, .f32⟩
  | .hbm, ⟨69, _⟩ => ⟨S340000x256, .f32⟩
  | .hbm, ⟨70, _⟩ => ⟨S_, .f32⟩
  | .hbm, ⟨71, _⟩ => ⟨S20000x256, .f32⟩
  | .hbm, ⟨72, _⟩ => ⟨S340000x1, .i32⟩
  | .hbm, ⟨73, _⟩ => ⟨S20000x256, .f32⟩
  | .hbm, ⟨74, _⟩ => ⟨S1x256, .f32⟩
  | .hbm, ⟨75, _⟩ => ⟨S20000x256, .f32⟩
  | .hbm, ⟨76, _⟩ => ⟨S20000x256, .f32⟩
  | .hbm, ⟨77, _⟩ => ⟨S20000x256, .f32⟩
  | .hbm, ⟨78, _⟩ => ⟨S_, .i32⟩
  | .hbm, ⟨79, _⟩ => ⟨S340000, .i32⟩
  | .hbm, ⟨80, _⟩ => ⟨S340000, .i1⟩
  | .hbm, ⟨81, _⟩ => ⟨S_, .i32⟩
  | .hbm, ⟨82, _⟩ => ⟨S340000, .i32⟩
  | .hbm, ⟨83, _⟩ => ⟨S340000, .i32⟩
  | .hbm, ⟨84, _⟩ => ⟨S340000, .i32⟩
  | .hbm, ⟨85, _⟩ => ⟨S340000x1, .i32⟩
  | .hbm, ⟨86, _⟩ => ⟨S340000, .f32⟩
  | .hbm, ⟨87, _⟩ => ⟨S_, .i32⟩
  | .hbm, ⟨88, _⟩ => ⟨S340000, .i32⟩
  | .hbm, ⟨89, _⟩ => ⟨S340000, .i1⟩
  | .hbm, ⟨90, _⟩ => ⟨S_, .i32⟩
  | .hbm, ⟨91, _⟩ => ⟨S340000, .i32⟩
  | .hbm, ⟨92, _⟩ => ⟨S340000, .i32⟩
  | .hbm, ⟨93, _⟩ => ⟨S340000, .i32⟩
  | .hbm, ⟨94, _⟩ => ⟨S340000x1, .i32⟩
  | .hbm, ⟨95, _⟩ => ⟨S340000, .f32⟩
  | .hbm, ⟨96, _⟩ => ⟨S340000, .f32⟩
  | .hbm, ⟨97, _⟩ => ⟨S_, .i32⟩
  | .hbm, ⟨98, _⟩ => ⟨S340000, .i32⟩
  | .hbm, ⟨99, _⟩ => ⟨S340000, .i1⟩
  | .hbm, ⟨100, _⟩ => ⟨S_, .i32⟩
  | .hbm, ⟨101, _⟩ => ⟨S340000, .i32⟩
  | .hbm, ⟨102, _⟩ => ⟨S340000, .i32⟩
  | .hbm, ⟨103, _⟩ => ⟨S340000, .i32⟩
  | .hbm, ⟨104, _⟩ => ⟨S340000x1, .i32⟩
  | .hbm, ⟨105, _⟩ => ⟨S340000x256, .f32⟩
  | .hbm, ⟨106, _⟩ => ⟨S340000x1, .f32⟩
  | .hbm, ⟨107, _⟩ => ⟨S340000x256, .f32⟩
  | .hbm, ⟨108, _⟩ => ⟨S340000x256, .f32⟩
  | .hbm, ⟨109, _⟩ => ⟨S_, .f32⟩
  | .hbm, ⟨110, _⟩ => ⟨S20000x256, .f32⟩
  | .hbm, ⟨111, _⟩ => ⟨S340000x1, .i32⟩
  | .hbm, ⟨112, _⟩ => ⟨S20000x256, .f32⟩
  | .hbm, ⟨113, _⟩ => ⟨S1x256, .f32⟩
  | .hbm, ⟨114, _⟩ => ⟨S20000x256, .f32⟩
  | .hbm, ⟨115, _⟩ => ⟨S20000x256, .f32⟩
  | .hbm, ⟨116, _⟩ => ⟨S20000x3, .f32⟩
  | .hbm, ⟨117, _⟩ => ⟨S1x3, .f32⟩
  | .hbm, ⟨118, _⟩ => ⟨S20000x3, .f32⟩
  | .hbm, ⟨119, _⟩ => ⟨S20000x3, .f32⟩
  | _, _ => ⟨S20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_call0_cst : Ref sig .tc := ⟨.hbm, 35, rfl⟩
abbrev main_call0_v0 : Ref sig .tc := ⟨.hbm, 36, rfl⟩
abbrev main_v21 : Ref sig .tc := ⟨.hbm, 37, rfl⟩
abbrev main_v22 : Ref sig .tc := ⟨.hbm, 38, rfl⟩
abbrev main_c_2 : Ref sig .tc := ⟨.hbm, 39, rfl⟩
abbrev main_v23 : Ref sig .tc := ⟨.hbm, 40, rfl⟩
abbrev main_v24 : Ref sig .tc := ⟨.hbm, 41, rfl⟩
abbrev main_c_3 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_6 : Ref sig .tc := ⟨.hbm, 58, rfl⟩
abbrev main_v38 : Ref sig .tc := ⟨.hbm, 59, rfl⟩
abbrev main_v39 : Ref sig .tc := ⟨.hbm, 60, rfl⟩
abbrev main_c_7 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_8 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_c_9 : Ref sig .tc := ⟨.hbm, 78, rfl⟩
abbrev main_v55 : Ref sig .tc := ⟨.hbm, 79, rfl⟩
abbrev main_v56 : Ref sig .tc := ⟨.hbm, 80, rfl⟩
abbrev main_c_10 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c_11 : Ref sig .tc := ⟨.hbm, 87, rfl⟩
abbrev main_v62 : Ref sig .tc := ⟨.hbm, 88, rfl⟩
abbrev main_v63 : Ref sig .tc := ⟨.hbm, 89, rfl⟩
abbrev main_c_12 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_c_13 : Ref sig .tc := ⟨.hbm, 97, rfl⟩
abbrev main_v70 : Ref sig .tc := ⟨.hbm, 98, rfl⟩
abbrev main_v71 : Ref sig .tc := ⟨.hbm, 99, rfl⟩
abbrev main_c_14 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_15 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  concatenates_S320000_S20000_S340000_d0 : Shape.Concatenates [S320000, S20000] S340000 0
  slices_S2x320000_S1x320000_1_0 : S2x320000.Slices ![1, 0] S1x320000
  bcast_S_S20000 : S_.BroadcastsInDim S20000 (![] : Fin 0 → Fin S20000.rank)
  bcast_S_S340000 : S_.BroadcastsInDim S340000 (![] : Fin 0 → Fin S340000.rank)
  bcast_S340000_S340000x1_0 : S340000.BroadcastsInDim S340000x1 (![0] : Fin 1 → Fin S340000x1.rank)
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  bcast_S_S20000x256 : S_.BroadcastsInDim S20000x256 (![] : Fin 0 → Fin S20000x256.rank)
  bcast_S340000x1_S340000x256_0_1 : S340000x1.BroadcastsInDim S340000x256 (![0, 1] : Fin 2 → Fin S340000x256.rank)
  bcast_S3_S1x3_1 : S3.BroadcastsInDim S1x3 (![1] : Fin 1 → Fin S1x3.rank)
  bcast_S1x3_S20000x3_0_1 : S1x3.BroadcastsInDim S20000x3 (![0, 1] : Fin 2 → Fin S20000x3.rank)
  scatter_S20000_S340000x1_S340000_n_0_0_1_wf : ScatterDims.WF S20000 S340000x1 S340000 [] [0] [0] 1
  dot_S20000x256_S256x256_S20000x256_1_0_0_1_n_n_wf : DotDims.WF S20000x256 S256x256 S20000x256 [1] [0] [0] [1] [] []
  gather_S20000_S340000x1_S340000_n_0_n_n_0_1_1_wf : GatherDims.WF S20000 S340000x1 S340000 [] [0] [] [0] [] 1 ![1]
  gather_S20000x256_S340000x1_S340000x256_1_0_n_n_0_1_1256_wf : GatherDims.WF S20000x256 S340000x1 S340000x256 [1] [0] [] [0] [] 1 ![1, 256]
  scatter_S20000x256_S340000x1_S340000x256_1_0_0_1_wf : ScatterDims.WF S20000x256 S340000x1 S340000x256 [1] [0] [0] 1
  dot_S20000x256_S256x3_S20000x3_1_0_0_1_n_n_wf : DotDims.WF S20000x256 S256x3 S20000x3 [1] [0] [0] [1] [] []

variable [Facts₀]

def scatter_S20000_S340000x1_S340000_n_0_0_1 : ScatterDims S20000 S340000x1 S340000 where
  updateWindowDims := []
  insertedWindowDims := [0]
  scatterDimsToOperandDims := [0]
  indexVectorDim := 1
  wf := scatter_S20000_S340000x1_S340000_n_0_0_1_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def gather_S20000_S340000x1_S340000_n_0_n_n_0_1_1 : GatherDims S20000 S340000x1 S340000 where
  offsetDims := []
  collapsedSliceDims := [0]
  operandBatchingDims := []
  startIndicesBatchingDims := []
  startIndexMap := [0]
  indexVectorDim := 1
  sliceSizes := ![1]
  wf := gather_S20000_S340000x1_S340000_n_0_n_n_0_1_1_wf
def gather_S20000x256_S340000x1_S340000x256_1_0_n_n_0_1_1256 : GatherDims S20000x256 S340000x1 S340000x256 where
  offsetDims := [1]
  collapsedSliceDims := [0]
  operandBatchingDims := []
  startIndicesBatchingDims := []
  startIndexMap := [0]
  indexVectorDim := 1
  sliceSizes := ![1, 256]
  wf := gather_S20000x256_S340000x1_S340000x256_1_0_n_n_0_1_1256_wf
def scatter_S20000x256_S340000x1_S340000x256_1_0_0_1 : ScatterDims S20000x256 S340000x1 S340000x256 where
  updateWindowDims := [1]
  insertedWindowDims := [0]
  scatterDimsToOperandDims := [0]
  indexVectorDim := 1
  wf := scatter_S20000x256_S340000x1_S340000x256_1_0_0_1_wf
def dot_S20000x256_S256x3_S20000x3_1_0_0_1_n_n : DotDims S20000x256 S256x3 S20000x3 where
  lhsContracting := [1]
  rhsContracting := [0]
  lhsNonContracting := [0]
  rhsNonContracting := [1]
  lhsBatch := []
  rhsBatch := []
  wf := dot_S20000x256_S256x3_S20000x3_1_0_0_1_n_n_wf

class Facts : Prop extends Facts₀ where

variable [Facts]
-- ==== Proof.RunResult.lean ====
/-
  The run of the kernel's program with its result buffer named.

  The program is four pallas_calls among four stretches of host operations. Its run ends with every unscoped
  TensorCore buffer at the contents the last boundary of that chain has (`W8`: the launch memory pushed through each
  host stretch and each call's write-backs in turn). The frame only reads the argument buffers off that state; here the
  result buffer is read off it as well.
-/
import proofs.«154297_j86698209837427_1_alg».proof.Proof.Gen.KernelIdeal.Frame

set_option maxRecDepth 16384

noncomputable section

namespace Cert.KernelIdeal.RunResult

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, with the result buffer at the last boundary's
    contents and the argument buffers as launched. -/
theorem run : θ_run defs (onTc (τ := τ) (main (F := F))) ⟨m, fun _ => 0, ρ⟩ (fun r => ∀ c : Dev nD,
      r.2.mem ((c.tc : Thread nD τ).loc main_v92) = W8 m ρ c (Proc.devRef .tc main_v92)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v92 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c)⟩)

end Cert.KernelIdeal.RunResult

end
-- ==== Proof.HostGlue.lean ====
/-
  The graph part of the network, which both programs compute on the host with the same operations: the edge list
  with one self loop per node appended, the inverse square roots of the in-degrees, and the normalised aggregation of
  one graph convolution.

  With `src` and `dst` the source and destination node words of the `340000` edges (self loops included) and `dinv` the
  inverse square root of the in-degree of each node, a convolution sends a node-feature matrix `hw` and a bias `b` to
  the matrix whose row `n` adds, over the edges `e` with destination `n`, `dinv[src e] · dinv[dst e] · hw[src e]`, plus `b`.
  Nothing here is opened by the certificate: both programs apply these functions to values that are shown equal.
-/
import proofs.«154297_j86698209837427_1_alg».proof.Proof.Gen.KernelIdeal
import Idealize.ShloMosaic.PureOps.Ideal

noncomputable section

namespace Cert.KernelIdeal.Glue

open Cert.KernelIdeal Cert.KernelIdeal.Gen Idealize.ShloMosaic

/-- The node words of one row of the edge list (`0`: sources, `1`: destinations), followed by the `20000` self loops. -/
def srcOf (ei : (⟨S2x320000, .i32⟩ : BufTy).Contents (Elt Ideal)) : (⟨S340000, .i32⟩ : BufTy).Contents (Elt Ideal) :=
  concatenate S340000 0 [⟨S320000, (shapeCast _ (extractStridedSlice S1x320000 ![0, 0] ei slices_S2x320000_S1x320000_0_0) shapeCasts_S1x320000_S320000)⟩, ⟨S20000, (iotaInDim S20000 32 0)⟩] concatenates_S320000_S20000_S340000_d0

/-- The destination words, followed by the self loops. -/
def dstOf (ei : (⟨S2x320000, .i32⟩ : BufTy).Contents (Elt Ideal)) : (⟨S340000, .i32⟩ : BufTy).Contents (Elt Ideal) :=
  concatenate S340000 0 [⟨S320000, (shapeCast _ (extractStridedSlice S1x320000 ![1, 0] ei slices_S2x320000_S1x320000_1_0) shapeCasts_S1x320000_S320000)⟩, ⟨S20000, (iotaInDim S20000 32 0)⟩] concatenates_S320000_S20000_S340000_d0

/-- A node word with a negative value moved up by the number of nodes (the host's index normalisation). -/
def wrap (v : (⟨S340000, .i32⟩ : BufTy).Contents (Elt Ideal)) : (⟨S340000, .i32⟩ : BufTy).Contents (Elt Ideal) :=
  select (cmpi .slt v (broadcastInDim S340000 ![] bcast_S_S340000 (constantI S_ 32 0#32))) (addi v (broadcastInDim S340000 ![] bcast_S_S340000 (constantI S_ 32 20000#32))) v

/-- The inverse square root of each node's in-degree: a one scattered onto each edge's destination, then `rsqrt`. -/
def dinvOf (dst : (⟨S340000, .i32⟩ : BufTy).Contents (Elt Ideal)) : (⟨S20000, .f32⟩ : BufTy).Contents (Elt Ideal) :=
  Host.rsqrt (F := Ideal) (Host.scatterAdd (F := Ideal) scatter_S20000_S340000x1_S340000_n_0_0_1 (broadcastInDim S20000 ![] bcast_S_S20000 (constant (F := Ideal) S_ .f32 0x00000000#32)) (broadcastInDim S340000x1 ![0] bcast_S340000_S340000x1_0 (wrap dst)) (broadcastInDim S340000 ![] bcast_S_S340000 (constant (F := Ideal) S_ .f32 0x3F800000#32)))

/-- The weight of each edge: the product of the two end nodes' inverse square-root degrees. -/
def edgeNorm (src dst : (⟨S340000, .i32⟩ : BufTy).Contents (Elt Ideal)) (dinv : (⟨S20000, .f32⟩ : BufTy).Contents (Elt Ideal)) :
    (⟨S340000, .f32⟩ : BufTy).Contents (Elt Ideal) :=
  mulf (F := Ideal) (φ := .f32) (Host.gather gather_S20000_S340000x1_S340000_n_0_n_n_0_1_1 dinv (broadcastInDim S340000x1 ![0] bcast_S340000_S340000x1_0 (wrap src))) (Host.gather gather_S20000_S340000x1_S340000_n_0_n_n_0_1_1 dinv (broadcastInDim S340000x1 ![0] bcast_S340000_S340000x1_0 (wrap dst)))

/-- One convolution's aggregation: gather the source rows of `hw`, weight them, add them onto their destination rows, add
    the bias to every row. -/
def agg (src dst : (⟨S340000, .i32⟩ : BufTy).Contents (Elt Ideal)) (dinv : (⟨S20000, .f32⟩ : BufTy).Contents (Elt Ideal))
    (hw : (⟨S20000x256, .f32⟩ : BufTy).Contents (Elt Ideal)) (b : (⟨S256, .f32⟩ : BufTy).Contents (Elt Ideal)) :
    (⟨S20000x256, .f32⟩ : BufTy).Contents (Elt Ideal) :=
  addf (F := Ideal) (φ := .f32) (Host.scatterAdd (F := Ideal) scatter_S20000x256_S340000x1_S340000x256_1_0_0_1 (broadcastInDim S20000x256 ![] bcast_S_S20000x256 (constant (F := Ideal) S_ .f32 0x00000000#32)) (broadcastInDim S340000x1 ![0] bcast_S340000_S340000x1_0 dst) (mulf (F := Ideal) (φ := .f32) (Host.gather gather_S20000x256_S340000x1_S340000x256_1_0_n_n_0_1_1256 hw (broadcastInDim S340000x1 ![0] bcast_S340000_S340000x1_0 (wrap src))) (broadcastInDim S340000x256 ![0, 1] bcast_S340000x1_S340000x256_0_1 (broadcastInDim S340000x1 ![0] bcast_S340000_S340000x1_0 (edgeNorm src dst dinv))))) (broadcastInDim S20000x256 ![0, 1] bcast_S1x256_S20000x256_0_1 (broadcastInDim S1x256 ![1] bcast_S256_S1x256_1 b))

end Cert.KernelIdeal.Glue

end
-- ==== Proof.LibChebAlgebra.lean ====
/-
  General algebra of a Chebyshev graph-convolution layer over the extended reals, independent of any
  particular program: (1) arrays all of whose entries are real numbers (`IsReal`) and the operations that preserve this;
  (2) node-axis propagation along weighted edges (`prop`) and the feature-axis matrix product (`mm`), both as sums;
  (3) the two commute (`prop_mm`); (4) the degree-2 Chebyshev layer written "product first, then propagate" equals
  the layer written "propagate first, then product" (`cheb_layer`).
  Extended-real arithmetic is not a ring (⊤ + ⊥, 0 * ⊤), so every identity here is proved by moving to ℝ, where the
  arrays live once they are known to be real.
-/
import Idealize.ShloMosaic.Lib.ValueIdx

noncomputable section

open scoped BigOperators

namespace ChebAlgebra

open Idealize.ShloMosaic Idealize.ShloMosaic.ValueIdx

/-! ## (1) Arrays of real numbers -/

/-- Every entry of the extended-real array `v` is a real number (equivalently: none is ⊤ or ⊥). -/
def IsReal {ι : Type*} (v : ι → EReal) : Prop := ∀ i, ∃ r : ℝ, v i = (r : EReal)

/-- The coercion ℝ → EReal commutes with finite sums. -/
theorem coe_finset_sum {κ : Type*} (s : Finset κ) (f : κ → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- The coercion ℝ → EReal commutes with `if … then … else 0`. -/
theorem coe_ite_zero (p : Prop) [Decidable p] (a : ℝ) :
    (((if p then a else 0 : ℝ)) : EReal) = if p then (a : EReal) else 0 := by
  split_ifs <;> simp

/-- The coercion ℝ → EReal commutes with `max`. -/
theorem coe_max (x y : ℝ) : ((max x y : ℝ) : EReal) = max (x : EReal) (y : EReal) :=
  Monotone.map_max EReal.coe_strictMono.monotone

/-- A real array is the coercion of an array of reals. -/
theorem IsReal.lift {ι : Type*} {v : ι → EReal} (h : IsReal v) : ∃ v' : ι → ℝ, v = fun i => ((v' i : ℝ) : EReal) := by
  choose v' hv using h
  exact ⟨v', funext hv⟩

/-- The coercion of an array of reals is a real array. -/
theorem isReal_coe {ι : Type*} (v : ι → ℝ) : IsReal (fun i => ((v i : ℝ) : EReal)) := fun i => ⟨v i, rfl⟩

/-- A constant array with a real value is real. -/
theorem isReal_const {ι : Type*} (r : ℝ) : IsReal (fun _ : ι => (r : EReal)) := fun _ => ⟨r, rfl⟩

/-- A constant array whose value is known to be real is real. -/
theorem isReal_const' {ι : Type*} {c : EReal} (h : ∃ r : ℝ, c = (r : EReal)) : IsReal (fun _ : ι => c) := fun _ => h

/-- Re-indexing (by any map) keeps an array real. -/
theorem IsReal.comp {ι κ : Type*} {v : ι → EReal} (h : IsReal v) (g : κ → ι) : IsReal (fun i => v (g i)) :=
  fun i => h (g i)

/-- A pointwise sum of real arrays is real. -/
theorem IsReal.add {ι : Type*} {a b : ι → EReal} (ha : IsReal a) (hb : IsReal b) : IsReal (fun i => a i + b i) := fun i => by
  obtain ⟨x, hx⟩ := ha i; obtain ⟨y, hy⟩ := hb i
  exact ⟨x + y, by show a i + b i = _; rw [hx, hy, EReal.coe_add]⟩

/-- A pointwise difference of real arrays is real. -/
theorem IsReal.sub {ι : Type*} {a b : ι → EReal} (ha : IsReal a) (hb : IsReal b) : IsReal (fun i => a i - b i) := fun i => by
  obtain ⟨x, hx⟩ := ha i; obtain ⟨y, hy⟩ := hb i
  exact ⟨x - y, by show a i - b i = _; rw [hx, hy, EReal.coe_sub]⟩

/-- A pointwise product of real arrays is real. -/
theorem IsReal.mul {ι : Type*} {a b : ι → EReal} (ha : IsReal a) (hb : IsReal b) : IsReal (fun i => a i * b i) := fun i => by
  obtain ⟨x, hx⟩ := ha i; obtain ⟨y, hy⟩ := hb i
  exact ⟨x * y, by show a i * b i = _; rw [hx, hy, EReal.coe_mul]⟩

/-- The pointwise negation of a real array is real. -/
theorem IsReal.neg {ι : Type*} {a : ι → EReal} (ha : IsReal a) : IsReal (fun i => - a i) := fun i => by
  obtain ⟨x, hx⟩ := ha i
  exact ⟨-x, by show - a i = _; rw [hx, EReal.coe_neg]⟩

/-- A pointwise maximum of real arrays is real. -/
theorem IsReal.max {ι : Type*} {a b : ι → EReal} (ha : IsReal a) (hb : IsReal b) : IsReal (fun i => max (a i) (b i)) := fun i => by
  obtain ⟨x, hx⟩ := ha i; obtain ⟨y, hy⟩ := hb i
  exact ⟨Max.max x y, by show Max.max (a i) (b i) = _; rw [hx, hy, coe_max]⟩

/-- A finite sum of real entries is real; only the summands over `s` need be real. -/
theorem isReal_sum' {ι κ : Type*} (s : Finset κ) (f : ι → κ → EReal) (h : ∀ i, ∀ k ∈ s, ∃ r : ℝ, f i k = (r : EReal)) :
    IsReal (fun i => ∑ k ∈ s, f i k) := by
  classical
  intro i
  show ∃ r : ℝ, ∑ k ∈ s, f i k = (r : EReal)
  induction s using Finset.induction_on with
  | empty => exact ⟨0, by simp⟩
  | insert a s ha ih =>
    obtain ⟨x, hx⟩ := h i a (Finset.mem_insert_self a s)
    obtain ⟨y, hy⟩ := ih (fun i k hk => h i k (Finset.mem_insert_of_mem hk))
    exact ⟨x + y, by rw [Finset.sum_insert ha, hx, hy, EReal.coe_add]⟩

/-- A finite sum of real entries is real. -/
theorem isReal_sum {ι κ : Type*} (s : Finset κ) (f : ι → κ → EReal) (h : ∀ i k, ∃ r : ℝ, f i k = (r : EReal)) :
    IsReal (fun i => ∑ k ∈ s, f i k) :=
  isReal_sum' s f (fun i k _ => h i k)

/-- A finite sum of `if p then (a real entry) else 0` is real. -/
theorem isReal_sum_ite {ι κ : Type*} (s : Finset κ) (p : ι → κ → Prop) [∀ i k, Decidable (p i k)] (f : ι → κ → EReal)
    (h : ∀ i k, ∃ r : ℝ, f i k = (r : EReal)) : IsReal (fun i => ∑ k ∈ s, if p i k then f i k else 0) :=
  isReal_sum s _ (fun i k => by
    split_ifs
    · exact h i k
    · exact ⟨0, rfl⟩)

/-! ## (2) Propagation along edges and the matrix product, as sums -/

section Operators
variable {N C E A B : Nat}

/-- Node-axis propagation: entry `(n, c)` of the result adds `nu e * Y (g e, c)` over the edges `e` that land on node `n`.
    `row e` is the node edge `e` lands on (`none`: the edge is dropped), `g e` the node it reads from, `nu e` its weight. -/
def prop (row : Fin E → Option (Fin N)) (g : Fin E → Fin N) (nu : Fin E → EReal)
    (Y : (⟨2, ![N, C]⟩ : Shape).Idx → EReal) : (⟨2, ![N, C]⟩ : Shape).Idx → EReal :=
  fun i => ∑ e : Fin E, if row e = (some (i 0) : Option (Fin N)) then nu e * Y (ix2 (g e) (i 1)) else 0

/-- The matrix product on the feature axis. -/
def mm (X : (⟨2, ![N, A]⟩ : Shape).Idx → EReal) (W : (⟨2, ![A, B]⟩ : Shape).Idx → EReal) :
    (⟨2, ![N, B]⟩ : Shape).Idx → EReal :=
  fun i => ∑ k : Fin A, X (ix2 (i 0) k) * W (ix2 k (i 1))

/-- Propagation over ℝ. -/
def propR (row : Fin E → Option (Fin N)) (g : Fin E → Fin N) (nu : Fin E → ℝ)
    (Y : (⟨2, ![N, C]⟩ : Shape).Idx → ℝ) : (⟨2, ![N, C]⟩ : Shape).Idx → ℝ :=
  fun i => ∑ e : Fin E, if row e = (some (i 0) : Option (Fin N)) then nu e * Y (ix2 (g e) (i 1)) else 0

/-- The matrix product over ℝ. -/
def mmR (X : (⟨2, ![N, A]⟩ : Shape).Idx → ℝ) (W : (⟨2, ![A, B]⟩ : Shape).Idx → ℝ) :
    (⟨2, ![N, B]⟩ : Shape).Idx → ℝ :=
  fun i => ∑ k : Fin A, X (ix2 (i 0) k) * W (ix2 k (i 1))

/-- Propagation of coerced real data is the coercion of the real propagation. -/
theorem prop_coe (row : Fin E → Option (Fin N)) (g : Fin E → Fin N) (nu : Fin E → ℝ)
    (Y : (⟨2, ![N, C]⟩ : Shape).Idx → ℝ) :
    prop row g (fun e => ((nu e : ℝ) : EReal)) (fun j => ((Y j : ℝ) : EReal)) = fun i => ((propR row g nu Y i : ℝ) : EReal) := by
  funext i
  show (∑ e : Fin E, if row e = (some (i 0) : Option (Fin N)) then ((nu e : ℝ) : EReal) * ((Y (ix2 (g e) (i 1)) : ℝ) : EReal) else 0)
    = ((∑ e : Fin E, if row e = (some (i 0) : Option (Fin N)) then nu e * Y (ix2 (g e) (i 1)) else 0 : ℝ) : EReal)
  rw [coe_finset_sum]
  refine Finset.sum_congr rfl (fun e _ => ?_)
  rw [coe_ite_zero, EReal.coe_mul]

/-- The product of coerced real matrices is the coercion of the real product. -/
theorem mm_coe (X : (⟨2, ![N, A]⟩ : Shape).Idx → ℝ) (W : (⟨2, ![A, B]⟩ : Shape).Idx → ℝ) :
    mm (fun j => ((X j : ℝ) : EReal)) (fun j => ((W j : ℝ) : EReal)) = fun i => ((mmR X W i : ℝ) : EReal) := by
  funext i
  show (∑ k : Fin A, ((X (ix2 (i 0) k) : ℝ) : EReal) * ((W (ix2 k (i 1)) : ℝ) : EReal))
    = ((∑ k : Fin A, X (ix2 (i 0) k) * W (ix2 k (i 1)) : ℝ) : EReal)
  rw [coe_finset_sum]
  refine Finset.sum_congr rfl (fun k _ => ?_)
  rw [EReal.coe_mul]

/-- Propagating real data along real weights gives a real array. -/
theorem isReal_prop (row : Fin E → Option (Fin N)) (g : Fin E → Fin N) {nu : Fin E → EReal}
    {Y : (⟨2, ![N, C]⟩ : Shape).Idx → EReal} (hnu : IsReal nu) (hY : IsReal Y) : IsReal (prop row g nu Y) := by
  obtain ⟨nu', rfl⟩ := hnu.lift
  obtain ⟨Y', rfl⟩ := hY.lift
  rw [prop_coe]
  exact isReal_coe _

/-- The product of real matrices is real. -/
theorem isReal_mm {X : (⟨2, ![N, A]⟩ : Shape).Idx → EReal} {W : (⟨2, ![A, B]⟩ : Shape).Idx → EReal}
    (hX : IsReal X) (hW : IsReal W) : IsReal (mm X W) := by
  obtain ⟨X', rfl⟩ := hX.lift
  obtain ⟨W', rfl⟩ := hW.lift
  rw [mm_coe]
  exact isReal_coe _

/-! ## (3) Propagation commutes with the matrix product -/

/-- Over ℝ: propagating a product along the node axis is the product of the propagated left factor. -/
theorem propR_mmR (row : Fin E → Option (Fin N)) (g : Fin E → Fin N) (nu : Fin E → ℝ)
    (X : (⟨2, ![N, A]⟩ : Shape).Idx → ℝ) (W : (⟨2, ![A, B]⟩ : Shape).Idx → ℝ) :
    propR row g nu (mmR X W) = mmR (propR row g nu X) W := by
  funext i
  show (∑ e : Fin E, if row e = (some (i 0) : Option (Fin N)) then nu e * ∑ k : Fin A, X (ix2 (g e) k) * W (ix2 k (i 1)) else 0)
    = ∑ k : Fin A, (∑ e : Fin E, if row e = (some (i 0) : Option (Fin N)) then nu e * X (ix2 (g e) k) else 0) * W (ix2 k (i 1))
  simp only [Finset.sum_mul]
  rw [Finset.sum_comm]
  refine Finset.sum_congr rfl (fun e _ => ?_)
  by_cases h : row e = (some (i 0) : Option (Fin N))
  · simp only [if_pos h, Finset.mul_sum]
    exact Finset.sum_congr rfl (fun k _ => by ring)
  · simp only [if_neg h, zero_mul, Finset.sum_const_zero]

/-- THE LAW: for real weights and real matrices, propagation along the node axis commutes with a matrix product on
    the feature axis. -/
theorem prop_mm (row : Fin E → Option (Fin N)) (g : Fin E → Fin N) {nu : Fin E → EReal}
    {X : (⟨2, ![N, A]⟩ : Shape).Idx → EReal} {W : (⟨2, ![A, B]⟩ : Shape).Idx → EReal}
    (hnu : IsReal nu) (hX : IsReal X) (hW : IsReal W) :
    prop row g nu (mm X W) = mm (prop row g nu X) W := by
  obtain ⟨nu', rfl⟩ := hnu.lift
  obtain ⟨X', rfl⟩ := hX.lift
  obtain ⟨W', rfl⟩ := hW.lift
  rw [mm_coe, prop_coe, prop_coe, mm_coe, propR_mmR]

/-! ## (4) The degree-2 Chebyshev layer, two ways -/

/-- Over ℝ the matrix product is linear in its left factor: the combination `a * P - X`. -/
theorem mmR_lin (a : ℝ) (P X : (⟨2, ![N, A]⟩ : Shape).Idx → ℝ) (W : (⟨2, ![A, B]⟩ : Shape).Idx → ℝ)
    (i : (⟨2, ![N, B]⟩ : Shape).Idx) :
    mmR (fun j => a * P j - X j) W i = a * mmR P W i - mmR X W i := by
  show (∑ k : Fin A, (a * P (ix2 (i 0) k) - X (ix2 (i 0) k)) * W (ix2 k (i 1)))
    = a * (∑ k : Fin A, P (ix2 (i 0) k) * W (ix2 k (i 1))) - ∑ k : Fin A, X (ix2 (i 0) k) * W (ix2 k (i 1))
  rw [Finset.mul_sum, ← Finset.sum_sub_distrib]
  exact Finset.sum_congr rfl (fun k _ => by ring)

/-- THE LAYER IDENTITY. With `T0 = X`, `T1 = L X`, `T2 = 2 L (L X) - X` (`L` the propagation), the layer
    `T0 W0 + T1 W1 + T2 W2 + b` may be computed product-first: `X W0 + L (X W1) + 2 L (L (X W2)) - X W2 + b`.
    Left side: products first, then propagation; right side: propagation first, then products. All data real;
    `two` is the real number 2. -/
theorem cheb_layer (row : Fin E → Option (Fin N)) (g : Fin E → Fin N) {nu : Fin E → EReal}
    {X : (⟨2, ![N, A]⟩ : Shape).Idx → EReal} {W0 W1 W2 : (⟨2, ![A, B]⟩ : Shape).Idx → EReal}
    {bb : (⟨2, ![N, B]⟩ : Shape).Idx → EReal} {two : EReal}
    (hnu : IsReal nu) (hX : IsReal X) (hW0 : IsReal W0) (hW1 : IsReal W1) (hW2 : IsReal W2) (hbb : IsReal bb)
    (htwo : two = ((2 : ℝ) : EReal)) :
    (fun i => ((((mm X W0 i + prop row g nu (mm X W1) i) + two * prop row g nu (prop row g nu (mm X W2)) i)
        - mm X W2 i) + bb i))
      = fun i => (((mm X W0 i + mm (prop row g nu X) W1 i)
        + mm (fun j => two * prop row g nu (prop row g nu X) j - X j) W2 i) + bb i) := by
  obtain ⟨nu', rfl⟩ := hnu.lift
  obtain ⟨X', rfl⟩ := hX.lift
  obtain ⟨W0', rfl⟩ := hW0.lift
  obtain ⟨W1', rfl⟩ := hW1.lift
  obtain ⟨W2', rfl⟩ := hW2.lift
  obtain ⟨bb', rfl⟩ := hbb.lift
  subst htwo
  -- every operator on coerced real data is the coercion of the real operator
  simp only [mm_coe, prop_coe]
  -- the right side's third left factor is itself a coerced real array
  have h3 : (fun j => ((2 : ℝ) : EReal) * ((propR row g nu' (propR row g nu' X') j : ℝ) : EReal) - ((X' j : ℝ) : EReal))
      = fun j => ((2 * propR row g nu' (propR row g nu' X') j - X' j : ℝ) : EReal) := by
    funext j
    rw [EReal.coe_sub, EReal.coe_mul]
  rw [h3, mm_coe]
  funext i
  simp only [← EReal.coe_mul, ← EReal.coe_add, ← EReal.coe_sub]
  rw [EReal.coe_eq_coe_iff]
  -- in ℝ: commute propagation with the products, then linearity
  simp only [propR_mmR, mmR_lin]
  ring

end Operators

end ChebAlgebra

end
-- ==== Proof.LibHostForms.lean ====
/-
  Host operations read as WHOLE-ARRAY equations at the ideal values, for arrays of any sizes: a plain matrix
  product `[N, A] × [A, B]` written as a `dot_general` is the sum over the inner coordinate; a slice `W[κ]` of a stack
  of matrices; a bias row broadcast over the rows of a matrix; a broadcast scalar constant; and the pointwise arithmetic.
-/
import Idealize.ShloMosaic.Lib.ValueIdx
import Idealize.ShloMosaic.Lib.Pipeline.Value
import Idealize.ShloMosaic.Lib.ValueLayout
import Idealize.ShloMosaic.PureOps.Ideal.Laws
import proofs.«154297_j86698209837427_1_alg».proof.Proof.LibChebAlgebra

noncomputable section

open scoped BigOperators

namespace HostForms

open Idealize.ShloMosaic Idealize.ShloMosaic.ValueIdx

variable {N A B : Nat}

/-! ## (L1) A plain `dot_general` is the matrix-product sum -/

/-- The dimension numbers of a plain product `[N, A] × [A, B] → [N, B]`: the left operand's axis 1 is contracted with the
    right operand's axis 0; no batch axes. -/
abbrev plainDotDims (N A B : Nat)
    (wf : DotDims.WF ⟨2, ![N, A]⟩ ⟨2, ![A, B]⟩ ⟨2, ![N, B]⟩ [1] [0] [0] [1] [] []) :
    DotDims ⟨2, ![N, A]⟩ ⟨2, ![A, B]⟩ ⟨2, ![N, B]⟩ where
  lhsContracting := [1]
  rhsContracting := [0]
  lhsNonContracting := [0]
  rhsNonContracting := [1]
  lhsBatch := []
  rhsBatch := []
  wf := wf

section DotLiteral
variable (wf : DotDims.WF ⟨2, ![N, A]⟩ ⟨2, ![A, B]⟩ ⟨2, ![N, B]⟩ [1] [0] [0] [1] [] [])

/-- The left operand's row coordinate is the output's row. -/
theorem lhs_row (i : (⟨2, ![N, B]⟩ : Shape).Idx) (q : (plainDotDims N A B wf).contr.Idx) :
    ((plainDotDims N A B wf).lhsIdx i q 0).val = (i 0).val := by
  unfold DotDims.lhsIdx
  rw [dif_neg (show (0 : Fin 2) ∉ (plainDotDims N A B wf).lhsBatch from List.not_mem_nil),
    dif_pos (show (0 : Fin 2) ∈ (plainDotDims N A B wf).lhsNonContracting from List.mem_singleton.mpr rfl)]
  rfl

/-- The right operand's column coordinate is the output's column. -/
theorem rhs_col (i : (⟨2, ![N, B]⟩ : Shape).Idx) (q : (plainDotDims N A B wf).contr.Idx) :
    ((plainDotDims N A B wf).rhsIdx i q 1).val = (i 1).val := by
  unfold DotDims.rhsIdx
  rw [dif_neg (show (1 : Fin 2) ∉ (plainDotDims N A B wf).rhsBatch from List.not_mem_nil),
    dif_pos (show (1 : Fin 2) ∈ (plainDotDims N A B wf).rhsNonContracting from List.mem_singleton.mpr rfl)]
  rfl

/-- THE PRODUCT AT ROW `r`, COLUMN `f`, for the literal dimension numbers: the sum over the inner coordinate. -/
theorem dotGeneral_plainDims_apply {φ₁ φ₂ : FTy} (prec : Option ContractPrecision) (X : FVec Ideal ⟨2, ![N, A]⟩ φ₁)
    (W : FVec Ideal ⟨2, ![A, B]⟩ φ₂) (r : Fin N) (f : Fin B) :
    Host.dotGeneral (F := Ideal) (plainDotDims N A B wf) prec X W (ix2 r f) = ∑ k : Fin A, X (ix2 r k) * W (ix2 k f) := by
  show FloatOps.dotGeneral (plainDotDims N A B wf) prec .single X W (ix2 r f) = _
  rw [Ideal.dotGeneral_apply, ← Equiv.sum_comp (contrEquiv1 (plainDotDims N A B wf) A rfl rfl).symm]
  refine Finset.sum_congr rfl fun k _ => ?_
  have hk := contrEquiv1_symm_val (plainDotDims N A B wf) A rfl rfl k
  have el : (plainDotDims N A B wf).lhsIdx (ix2 r f) ((contrEquiv1 (plainDotDims N A B wf) A rfl rfl).symm k) = ix2 r k :=
    funext fun a => Fin.ext (by
      match a with
      | ⟨0, _⟩ => exact lhs_row wf _ _
      | ⟨1, _⟩ => exact (DotDims.lhsIdx_val_of_single (plainDotDims N A B wf) rfl _ _).trans hk)
  have er : (plainDotDims N A B wf).rhsIdx (ix2 r f) ((contrEquiv1 (plainDotDims N A B wf) A rfl rfl).symm k) = ix2 k f :=
    funext fun a => Fin.ext (by
      match a with
      | ⟨0, _⟩ => exact (DotDims.rhsIdx_val_of_single (plainDotDims N A B wf) rfl _ _).trans hk
      | ⟨1, _⟩ => exact rhs_col wf _ _)
  rw [el, er]

/-- The whole product, for the literal dimension numbers. -/
theorem dotGeneral_plainDims {φ₁ φ₂ : FTy} (prec : Option ContractPrecision) (X : FVec Ideal ⟨2, ![N, A]⟩ φ₁)
    (W : FVec Ideal ⟨2, ![A, B]⟩ φ₂) :
    Host.dotGeneral (F := Ideal) (plainDotDims N A B wf) prec X W
      = fun i => ∑ k : Fin A, X (ix2 (i 0) k) * W (ix2 k (i 1)) := by
  funext i
  obtain ⟨r, f, rfl⟩ : ∃ (r : Fin N) (f : Fin B), i = ix2 r f := ⟨i 0, i 1, eq_ix2 i⟩
  exact dotGeneral_plainDims_apply wf prec X W r f

end DotLiteral

/-- THE WHOLE PRODUCT, for ANY dimension numbers with the plain product's fields (a record given by its fields: the six
    hypotheses then hold by `rfl`): entry `(r, f)` is the sum over the inner coordinate `k` of `X (r, k) * W (k, f)`. -/
theorem dotGeneral_mm {φ₁ φ₂ : FTy} (d : DotDims ⟨2, ![N, A]⟩ ⟨2, ![A, B]⟩ ⟨2, ![N, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (X : FVec Ideal ⟨2, ![N, A]⟩ φ₁) (W : FVec Ideal ⟨2, ![A, B]⟩ φ₂) :
    Host.dotGeneral (F := Ideal) d prec X W = fun i => ∑ k : Fin A, X (ix2 (i 0) k) * W (ix2 k (i 1)) := by
  obtain ⟨lc, rc, ln, rn, lb, rb, wf⟩ := d
  simp only at h1 h2 h3 h4 h5 h6
  subst h1 h2 h3 h4 h5 h6
  exact dotGeneral_plainDims wf prec X W

/-- The same at row `r`, column `f`. -/
theorem dotGeneral_mm_apply {φ₁ φ₂ : FTy} (d : DotDims ⟨2, ![N, A]⟩ ⟨2, ![A, B]⟩ ⟨2, ![N, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (X : FVec Ideal ⟨2, ![N, A]⟩ φ₁) (W : FVec Ideal ⟨2, ![A, B]⟩ φ₂)
    (r : Fin N) (f : Fin B) :
    Host.dotGeneral (F := Ideal) d prec X W (ix2 r f) = ∑ k : Fin A, X (ix2 r k) * W (ix2 k f) :=
  congrFun (dotGeneral_mm d h1 h2 h3 h4 h5 h6 prec X W) (ix2 r f)

/-- The whole product as the matrix-product operator `ChebAlgebra.mm`. -/
theorem dotGeneral_eq_mm {φ₁ φ₂ : FTy} (d : DotDims ⟨2, ![N, A]⟩ ⟨2, ![A, B]⟩ ⟨2, ![N, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (X : FVec Ideal ⟨2, ![N, A]⟩ φ₁) (W : FVec Ideal ⟨2, ![A, B]⟩ φ₂) :
    Host.dotGeneral (F := Ideal) d prec X W = ChebAlgebra.mm X W :=
  dotGeneral_mm d h1 h2 h3 h4 h5 h6 prec X W

/-! ## (L2) One matrix of a stack: `W[κ]` -/

section Stack
variable {α : Type} {K : Nat}

/-- Slice `κ` of a stack `[K, A, B]` of matrices, cut out as `[1, A, B]` and viewed as `[A, B]`, is the matrix
    `(a, b) ↦ W (κ, a, b)`. -/
theorem slice_stack (κ : Fin K) (W : (⟨3, ![K, A, B]⟩ : Shape).Idx → α)
    (hs : (⟨3, ![K, A, B]⟩ : Shape).Slices ![κ.val, 0, 0] ⟨3, ![1, A, B]⟩)
    (hc : (⟨3, ![1, A, B]⟩ : Shape).ShapeCasts ⟨2, ![A, B]⟩) :
    shapeCast ⟨2, ![A, B]⟩ (extractStridedSlice ⟨3, ![1, A, B]⟩ ![κ.val, 0, 0] W hs) hc
      = fun j => W (ix3 κ (j 0) (j 1)) := by
  funext j
  obtain ⟨a, b, rfl⟩ : ∃ (a : Fin A) (b : Fin B), j = ix2 a b := ⟨j 0, j 1, eq_ix2 j⟩
  rw [shapeCast_1ab_ab_apply]
  refine extractStridedSlice_apply _ W hs _ (ix3 κ a b) (fun c => ?_)
  match c with
  | ⟨0, _⟩ => show κ.val = κ.val + 0; rfl
  | ⟨1, _⟩ => show a.val = 0 + a.val; exact (Nat.zero_add _).symm
  | ⟨2, _⟩ => show b.val = 0 + b.val; exact (Nat.zero_add _).symm

/-- The first matrix of a stack of three. -/
theorem slice_stack3_0 (W : (⟨3, ![3, A, B]⟩ : Shape).Idx → α)
    (hs : (⟨3, ![3, A, B]⟩ : Shape).Slices ![0, 0, 0] ⟨3, ![1, A, B]⟩)
    (hc : (⟨3, ![1, A, B]⟩ : Shape).ShapeCasts ⟨2, ![A, B]⟩) :
    shapeCast ⟨2, ![A, B]⟩ (extractStridedSlice ⟨3, ![1, A, B]⟩ ![0, 0, 0] W hs) hc
      = fun j => W (ix3 (0 : Fin 3) (j 0) (j 1)) :=
  slice_stack (0 : Fin 3) W hs hc

/-- The second matrix of a stack of three. -/
theorem slice_stack3_1 (W : (⟨3, ![3, A, B]⟩ : Shape).Idx → α)
    (hs : (⟨3, ![3, A, B]⟩ : Shape).Slices ![1, 0, 0] ⟨3, ![1, A, B]⟩)
    (hc : (⟨3, ![1, A, B]⟩ : Shape).ShapeCasts ⟨2, ![A, B]⟩) :
    shapeCast ⟨2, ![A, B]⟩ (extractStridedSlice ⟨3, ![1, A, B]⟩ ![1, 0, 0] W hs) hc
      = fun j => W (ix3 (1 : Fin 3) (j 0) (j 1)) :=
  slice_stack (1 : Fin 3) W hs hc

/-- The third matrix of a stack of three. -/
theorem slice_stack3_2 (W : (⟨3, ![3, A, B]⟩ : Shape).Idx → α)
    (hs : (⟨3, ![3, A, B]⟩ : Shape).Slices ![2, 0, 0] ⟨3, ![1, A, B]⟩)
    (hc : (⟨3, ![1, A, B]⟩ : Shape).ShapeCasts ⟨2, ![A, B]⟩) :
    shapeCast ⟨2, ![A, B]⟩ (extractStridedSlice ⟨3, ![1, A, B]⟩ ![2, 0, 0] W hs) hc
      = fun j => W (ix3 (2 : Fin 3) (j 0) (j 1)) :=
  slice_stack (2 : Fin 3) W hs hc

end Stack

/-! ## (L3) A bias row broadcast over the rows of a matrix -/

section Bias
variable {α : Type}

/-- A vector `[B]` made a row `[1, B]` by a broadcast, read at `(0, f)`. -/
theorem bcast_row_apply (b : (⟨1, ![B]⟩ : Shape).Idx → α)
    (h1 : (⟨1, ![B]⟩ : Shape).BroadcastsInDim ⟨2, ![1, B]⟩ ![1]) (u : Fin 1) (f : Fin B) :
    broadcastInDim ⟨2, ![1, B]⟩ ![1] h1 b (ix2 u f) = b (ix1 f) := by
  refine broadcastInDim_apply _ h1 b _ (ix1 f) (fun c => ?_)
  match c with
  | ⟨0, _⟩ =>
    show f.val = if B = 1 then 0 else f.val
    split_ifs with hB
    · have := f.isLt; omega
    · rfl

/-- A row `[1, B]` repeated down the `N` rows of a matrix, read at `(n, f)`. -/
theorem bcast_rows_apply (v : (⟨2, ![1, B]⟩ : Shape).Idx → α)
    (h2 : (⟨2, ![1, B]⟩ : Shape).BroadcastsInDim ⟨2, ![N, B]⟩ ![0, 1]) (n : Fin N) (f : Fin B) :
    broadcastInDim ⟨2, ![N, B]⟩ ![0, 1] h2 v (ix2 n f) = v (ix2 (0 : Fin 1) f) := by
  refine broadcastInDim_apply _ h2 v _ (ix2 (0 : Fin 1) f) (fun c => ?_)
  match c with
  | ⟨0, _⟩ =>
    show (0 : ℕ) = if (1 : ℕ) = 1 then 0 else n.val
    rw [if_pos rfl]
  | ⟨1, _⟩ =>
    show f.val = if B = 1 then 0 else f.val
    split_ifs with hB
    · have := f.isLt; omega
    · rfl

/-- (a) THE BIAS, two broadcasts: a vector `[B]` made a row and repeated down the rows is `(n, f) ↦ b f`. -/
theorem bias_bcast_bcast (b : (⟨1, ![B]⟩ : Shape).Idx → α)
    (h1 : (⟨1, ![B]⟩ : Shape).BroadcastsInDim ⟨2, ![1, B]⟩ ![1])
    (h2 : (⟨2, ![1, B]⟩ : Shape).BroadcastsInDim ⟨2, ![N, B]⟩ ![0, 1]) :
    broadcastInDim ⟨2, ![N, B]⟩ ![0, 1] h2 (broadcastInDim ⟨2, ![1, B]⟩ ![1] h1 b) = fun i => b (ix1 (i 1)) := by
  funext i
  obtain ⟨n, f, rfl⟩ : ∃ (n : Fin N) (f : Fin B), i = ix2 n f := ⟨i 0, i 1, eq_ix2 i⟩
  rw [bcast_rows_apply, bcast_row_apply]
  rfl

/-- (b) THE BIAS, a shape cast then a broadcast: a vector `[B]` viewed as a row and repeated down the rows is
    `(n, f) ↦ b f`. -/
theorem bias_cast_bcast (b : (⟨1, ![B]⟩ : Shape).Idx → α)
    (hc : (⟨1, ![B]⟩ : Shape).ShapeCasts ⟨2, ![1, B]⟩)
    (h2 : (⟨2, ![1, B]⟩ : Shape).BroadcastsInDim ⟨2, ![N, B]⟩ ![0, 1]) :
    broadcastInDim ⟨2, ![N, B]⟩ ![0, 1] h2 (shapeCast ⟨2, ![1, B]⟩ b hc) = fun i => b (ix1 (i 1)) := by
  funext i
  obtain ⟨n, f, rfl⟩ : ∃ (n : Fin N) (f : Fin B), i = ix2 n f := ⟨i 0, i 1, eq_ix2 i⟩
  rw [bcast_rows_apply, shapeCast_a_1a_apply]
  rfl

/-- (c) A vector `[B]` viewed as a row, read at `(0, f)`. -/
theorem cast_row_apply (b : (⟨1, ![B]⟩ : Shape).Idx → α) (hc : (⟨1, ![B]⟩ : Shape).ShapeCasts ⟨2, ![1, B]⟩)
    (f : Fin B) : (shapeCast ⟨2, ![1, B]⟩ b hc) (ix2 (0 : Fin 1) f) = b (ix1 f) :=
  shapeCast_a_1a_apply b hc 0 f

end Bias

/-! ## (L4) A broadcast scalar -/

/-- A scalar array broadcast to any shape is constant. -/
theorem bcast_scalar {α : Type} (s : Shape) (c : (⟨0, ![]⟩ : Shape).Idx → α)
    (h : (⟨0, ![]⟩ : Shape).BroadcastsInDim s ![]) : broadcastInDim s ![] h c = fun _ => c ix0 := by
  funext j
  exact broadcastInDim_apply _ h c j ix0 (fun a => a.elim0)

/-- A scalar float constant broadcast to any shape is the extended real its word encodes, everywhere. -/
theorem bcast_constant {φ : FTy} (s : Shape) (w : BitVec φ.bits) (h : (⟨0, ![]⟩ : Shape).BroadcastsInDim s ![]) :
    broadcastInDim s ![] h (constant (F := Ideal) ⟨0, ![]⟩ φ w) = fun _ => Ideal.ofBits φ w := by
  rw [bcast_scalar]
  rfl

/-- The `f32` word `0x40000000` is the real number 2. -/
theorem ofBits_two_f32 : Ideal.ofBits .f32 0x40000000#32 = ((2 : ℝ) : EReal) := by
  simp [Ideal.ofBits, Ideal.ieee]
  norm_cast
  norm_num

/-! ## (L5) Pointwise arithmetic on whole arrays -/

section Pointwise
variable {s : Shape} {φ : FTy}

/-- A sum of arrays is the pointwise sum. -/
theorem addf_fun (a b : FVec Ideal s φ) : addf a b = fun i => a i + b i := rfl
/-- A difference of arrays is the pointwise difference. -/
theorem subf_fun (a b : FVec Ideal s φ) : subf a b = fun i => a i - b i := rfl
/-- A product of arrays is the pointwise product. -/
theorem mulf_fun (a b : FVec Ideal s φ) : mulf a b = fun i => a i * b i := rfl
/-- A maximum of arrays is the pointwise maximum. -/
theorem maximumf_fun (a b : FVec Ideal s φ) : maximumf a b = fun i => max (a i) (b i) := rfl
/-- A negated array is the pointwise negation. -/
theorem negf_fun (a : FVec Ideal s φ) : negf a = fun i => - a i := rfl
/-- A narrowing change of float format is the identity on extended reals. -/
theorem truncf_fun {ψ : FTy} (a : FVec Ideal s φ) (h : ψ.bits < φ.bits) : (truncf ψ a h : FVec Ideal s ψ) = a := rfl
/-- A widening change of float format is the identity on extended reals. -/
theorem extf_fun {ψ : FTy} (a : FVec Ideal s φ) (h : φ.bits < ψ.bits) : (extf ψ a h : FVec Ideal s ψ) = a := rfl

end Pointwise

end HostForms

end
-- ==== Proof.LibMatmulForms.lean ====
/-
  A kernel matrix product `[N, A] × [A, B]` accumulated into `acc`, at the ideal instance, read at row `r` and column
  `f`: the accumulator's entry plus the sum over the inner coordinate `k` of `X (r, k) · W (k, f)` — for any dimension
  numbers whose fields are the plain product's (contract the left operand's axis 1 with the right operand's axis 0,
  no batch axes). The host's `dot_general` with the same dimension numbers is the same sum without the accumulator, so
  the statement is read off that one.
-/
import proofs.«154297_j86698209837427_1_alg».proof.Proof.LibHostForms

noncomputable section

open scoped BigOperators

namespace MatmulForms

open Idealize.ShloMosaic Idealize.ShloMosaic.ValueIdx

variable {N A B : Nat}

/-- The kernel's product at `(r, f)`: the accumulator there plus the inner sum. -/
theorem matmul_mm_apply {φ₁ φ₂ : FTy} (d : DotDims ⟨2, ![N, A]⟩ ⟨2, ![A, B]⟩ ⟨2, ![N, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (X : FVec Ideal ⟨2, ![N, A]⟩ φ₁) (W : FVec Ideal ⟨2, ![A, B]⟩ φ₂)
    (acc : FVec Ideal ⟨2, ![N, B]⟩ .f32) (r : Fin N) (f : Fin B) :
    FloatOps.matmul d prec X W acc (ix2 r f) = acc (ix2 r f) + ∑ k : Fin A, X (ix2 r k) * W (ix2 k f) := by
  have e := HostForms.dotGeneral_mm_apply d h1 h2 h3 h4 h5 h6 prec X W r f
  rw [show Host.dotGeneral (F := Ideal) d prec X W (ix2 r f) = FloatOps.dotGeneral d prec .single X W (ix2 r f) from rfl,
    Ideal.dotGeneral_apply] at e
  rw [Ideal.matmul_apply, e]

/-- Into the zero accumulator: the inner sum alone. -/
theorem matmul_zero_mm_apply {φ₁ φ₂ : FTy} (d : DotDims ⟨2, ![N, A]⟩ ⟨2, ![A, B]⟩ ⟨2, ![N, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (X : FVec Ideal ⟨2, ![N, A]⟩ φ₁) (W : FVec Ideal ⟨2, ![A, B]⟩ φ₂) (r : Fin N) (f : Fin B) :
    FloatOps.matmul d prec X W (constant ⟨2, ![N, B]⟩ .f32 0x00000000#32) (ix2 r f) = ∑ k : Fin A, X (ix2 r k) * W (ix2 k f) := by
  rw [matmul_mm_apply d h1 h2 h3 h4 h5 h6]
  show Ideal.ofBits .f32 0x00000000#32 + _ = _
  rw [Ideal.ofBits_zero_f32, zero_add]

end MatmulForms

end
-- ==== Proof.Linear.lean ====
/-
  The dense layers of the network as whole-array functions on the extended reals, for arrays of any sizes.

  A layer takes a matrix `X` of `N` rows and `A` columns, a weight matrix `W` of `A` rows and `B` columns and a bias row `b`
  (a `[1, B]` array), and produces the matrix whose entry `(n, f)` is `∑ k, X (n, k) · W (k, f) + b (0, f)`; the
  rectified layer takes the maximum of that with zero. The host writes the same layers with a `dot_general`, a bias
  vector broadcast over the rows and a broadcast zero: those forms are shown equal to the sums here.
-/
import proofs.«154297_j86698209837427_1_alg».proof.Proof.LibMatmulForms

noncomputable section

open scoped BigOperators

namespace Cert.Linear

open Idealize.ShloMosaic Idealize.ShloMosaic.ValueIdx ChebAlgebra

variable {N A B : Nat}

/-- The matrix product plus a bias row: entry `(n, f)` is `∑ k, X (n, k) · W (k, f) + b (0, f)`. -/
def affine (X : (⟨2, ![N, A]⟩ : Shape).Idx → EReal) (W : (⟨2, ![A, B]⟩ : Shape).Idx → EReal)
    (b : (⟨2, ![1, B]⟩ : Shape).Idx → EReal) : (⟨2, ![N, B]⟩ : Shape).Idx → EReal :=
  fun i => mm X W i + b (ix2 (0 : Fin 1) (i 1))

/-- The rectified layer: the maximum of the affine layer with the real number the zero word denotes. -/
def affineRelu (X : (⟨2, ![N, A]⟩ : Shape).Idx → EReal) (W : (⟨2, ![A, B]⟩ : Shape).Idx → EReal)
    (b : (⟨2, ![1, B]⟩ : Shape).Idx → EReal) : (⟨2, ![N, B]⟩ : Shape).Idx → EReal :=
  fun i => max (affine X W b i) (Ideal.ofBits .f32 0x00000000#32)

/-- The host's affine layer — a `dot_general` plus the bias vector made a row and repeated down the rows — is the
    affine layer of the bias vector viewed as a row. -/
theorem host_affine (d : DotDims ⟨2, ![N, A]⟩ ⟨2, ![A, B]⟩ ⟨2, ![N, B]⟩)
    (h1 : d.lhsContracting = [1]) (h2 : d.rhsContracting = [0]) (h3 : d.lhsNonContracting = [0])
    (h4 : d.rhsNonContracting = [1]) (h5 : d.lhsBatch = []) (h6 : d.rhsBatch = [])
    (X : FVec Ideal ⟨2, ![N, A]⟩ .f32) (W : FVec Ideal ⟨2, ![A, B]⟩ .f32) (b : FVec Ideal ⟨1, ![B]⟩ .f32)
    (hb1 : (⟨1, ![B]⟩ : Shape).BroadcastsInDim ⟨2, ![1, B]⟩ ![1])
    (hb2 : (⟨2, ![1, B]⟩ : Shape).BroadcastsInDim ⟨2, ![N, B]⟩ ![0, 1])
    (hc : (⟨1, ![B]⟩ : Shape).ShapeCasts ⟨2, ![1, B]⟩) :
    addf (Host.dotGeneral (F := Ideal) d none X W)
        (broadcastInDim ⟨2, ![N, B]⟩ ![0, 1] hb2 (broadcastInDim ⟨2, ![1, B]⟩ ![1] hb1 b))
      = affine X W (shapeCast ⟨2, ![1, B]⟩ b hc) := by
  rw [HostForms.dotGeneral_eq_mm d h1 h2 h3 h4 h5 h6, HostForms.bias_bcast_bcast]
  funext i
  obtain ⟨n, f, rfl⟩ : ∃ (n : Fin N) (f : Fin B), i = ix2 n f := ⟨i 0, i 1, eq_ix2 i⟩
  show mm X W (ix2 n f) + b (ix1 f) = mm X W (ix2 n f) + shapeCast ⟨2, ![1, B]⟩ b hc (ix2 (0 : Fin 1) f)
  rw [HostForms.cast_row_apply]

/-- The host's rectified layer — the maximum of its affine layer with a broadcast zero constant — is the rectified
    layer. -/
theorem host_affineRelu (d : DotDims ⟨2, ![N, A]⟩ ⟨2, ![A, B]⟩ ⟨2, ![N, B]⟩)
    (h1 : d.lhsContracting = [1]) (h2 : d.rhsContracting = [0]) (h3 : d.lhsNonContracting = [0])
    (h4 : d.rhsNonContracting = [1]) (h5 : d.lhsBatch = []) (h6 : d.rhsBatch = [])
    (X : FVec Ideal ⟨2, ![N, A]⟩ .f32) (W : FVec Ideal ⟨2, ![A, B]⟩ .f32) (b : FVec Ideal ⟨1, ![B]⟩ .f32)
    (hb1 : (⟨1, ![B]⟩ : Shape).BroadcastsInDim ⟨2, ![1, B]⟩ ![1])
    (hb2 : (⟨2, ![1, B]⟩ : Shape).BroadcastsInDim ⟨2, ![N, B]⟩ ![0, 1])
    (hc : (⟨1, ![B]⟩ : Shape).ShapeCasts ⟨2, ![1, B]⟩)
    (h0 : (⟨0, ![]⟩ : Shape).BroadcastsInDim ⟨2, ![N, B]⟩ ![]) :
    maximumf (addf (Host.dotGeneral (F := Ideal) d none X W)
        (broadcastInDim ⟨2, ![N, B]⟩ ![0, 1] hb2 (broadcastInDim ⟨2, ![1, B]⟩ ![1] hb1 b)))
      (broadcastInDim ⟨2, ![N, B]⟩ ![] h0 (constant (F := Ideal) ⟨0, ![]⟩ .f32 0x00000000#32))
      = affineRelu X W (shapeCast ⟨2, ![1, B]⟩ b hc) := by
  rw [host_affine d h1 h2 h3 h4 h5 h6 X W b hb1 hb2 hc, HostForms.bcast_constant]
  rfl

end Cert.Linear

end
-- ==== Proof.Region0.lean ====
/-
  The first pallas_call: the rectified embedding layer.

  The call tiles the `20000` rows of its left operand into five blocks of `4000` rows; at grid point `t` the body reads
  rows `4000·t … 4000·t + 3999` of the left operand, the whole weight matrix and the whole bias row, and stores
  `max (X·W + b, 0)` of them into rows `4000·t … 4000·t + 3999` of the result. The five blocks tile the result, so after
  the call the result array is the rectified affine layer of the three operand arrays as the call found them.
-/
import proofs.«154297_j86698209837427_1_alg».proof.Proof.Gen.KernelIdeal.Frame
import proofs.«154297_j86698209837427_1_alg».proof.Proof.Linear

noncomputable section

open scoped BigOperators

namespace Cert.KernelIdeal.Region0

open Cert.KernelIdeal Cert.KernelIdeal.Gen Idealize.ShloMosaic Idealize.ShloMosaic.TcCoe Idealize.SL.Sem
open Idealize.ShloMosaic.ValueIdx Cert.Linear

variable (V : (c : Dev nD) → (b : Ref sig .tc) → Buf (Elt Ideal) ((c : Thread nD τ).loc b))

theorem hz : (![0, 0] : Fin 2 → Nat) = fun _ => 0 := funext fun a => by fin_cases a <;> rfl

/-- The body's stored value at row `a`, column `f` of the block: the inner product of row `a` of the left block with
    column `f` of the weights, plus the bias at `f`, rectified. -/
theorem payload_apply (x0 : FVec Ideal S4000x256 .bf16) (x1 : FVec Ideal S256x256 .bf16) (x2 : FVec Ideal S1x256 .f32)
    (a : Fin 4000) (f : Fin 256) :
    k0_pay1 (F := Ideal) x0 x1 x2 (ix2 a f)
      = max ((∑ k : Fin 256, x0 (ix2 a k) * x1 (ix2 k f)) + x2 (ix2 (0 : Fin 1) f)) (Ideal.ofBits .f32 0x00000000#32) := by
  unfold k0_pay1
  refine congrArg₂ max (congrArg₂ (· + ·) ?_ ?_) rfl
  · rw [shapeCast_self, shapeCast_self]
    exact MatmulForms.matmul_zero_mm_apply _ rfl rfl rfl rfl rfl rfl none x0 x1 a f
  · rw [shapeCast_self]
    exact broadcastTo_1b_ab_apply x2 _ a f

/-- The printed index maps over the grid: the left operand's and the result's block row index is the grid point, every
    other block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `a` of block `t` is row `4000·t + a` of the array. -/
def row (t : Fin cfg0.N) (a : Fin 4000) : Fin 20000 := ⟨t.val * 4000 + a.val, by have h : t.val < cfg0.N := t.isLt; have hN : cfg0.N = 5 := N_0; have := a.isLt; omega⟩

/-- The left operand's block at point `t`, read at `(a, k)`. -/
theorem read_lhs (c : Dev nD) (t : Fin cfg0.N) (a : Fin 4000) (k : Fin 256) :
    iblk0 V c 0 t (ix2 a k) = V c main_v17 (ix2 (row t a) k) := by
  obtain ⟨e0, e1, -⟩ := idx_facts t
  show V c main_v17 (((cfg0.win 0).blk t).view.emb (ix2 a k)) = V c main_v17 (ix2 (row t a) k)
  refine congrArg (V c main_v17) (funext fun d => Fin.ext ?_)
  match d with
  | ⟨0, _⟩ => show win0_0.index t (0 : Fin 2) * 4000 + 1 * a.val = t.val * 4000 + a.val; omega
  | ⟨1, _⟩ => show win0_0.index t (1 : Fin 2) * 256 + 1 * k.val = k.val; omega

/-- The weights' block at any point is the whole weight matrix. -/
theorem read_w (c : Dev nD) (t : Fin cfg0.N) (k : Fin 256) (f : Fin 256) :
    iblk0 V c 1 t (ix2 k f) = V c main_v18 (ix2 k f) := by
  obtain ⟨-, -, e2, e3, -⟩ := idx_facts t
  show V c main_v18 (((cfg0.win 1).blk t).view.emb (ix2 k f)) = V c main_v18 (ix2 k f)
  refine congrArg (V c main_v18) (funext fun d => Fin.ext ?_)
  match d with
  | ⟨0, _⟩ => show win0_1.index t (0 : Fin 2) * 256 + 1 * k.val = k.val; omega
  | ⟨1, _⟩ => show win0_1.index t (1 : Fin 2) * 256 + 1 * f.val = f.val; omega

/-- The bias row's block at any point is the whole bias row. -/
theorem read_b (c : Dev nD) (t : Fin cfg0.N) (f : Fin 256) :
    iblk0 V c 2 t (ix2 (0 : Fin 1) f) = V c main_v19 (ix2 (0 : Fin 1) f) := by
  obtain ⟨-, -, -, -, e4, e5, -⟩ := idx_facts t
  show V c main_v19 (((cfg0.win 2).blk t).view.emb (ix2 (0 : Fin 1) f)) = V c main_v19 (ix2 (0 : Fin 1) f)
  refine congrArg (V c main_v19) (funext fun d => Fin.ext ?_)
  match d with
  | ⟨0, _⟩ => show win0_2.index t (0 : Fin 2) * 1 + 1 * 0 = 0; omega
  | ⟨1, _⟩ => show win0_2.index t (1 : Fin 2) * 256 + 1 * f.val = f.val; omega

/-- Where entry `(a, f)` of the result's block at point `t` sits in the result array. -/
theorem emb_out (t : Fin cfg0.N) (a : Fin 4000) (f : Fin 256) :
    ((cfg0.win 3).blk t).view.emb (ix2 a f) = ix2 (row t a) f := by
  obtain ⟨-, -, -, -, -, -, e6, e7⟩ := idx_facts t
  refine funext fun d => Fin.ext ?_
  match d with
  | ⟨0, _⟩ => show win0_3.index t (0 : Fin 2) * 4000 + 1 * a.val = t.val * 4000 + a.val; omega
  | ⟨1, _⟩ => show win0_3.index t (1 : Fin 2) * 256 + 1 * f.val = f.val; omega

/-- What point `t` writes back is block `t` of the rectified layer of the operand arrays. -/
theorem flushed_eq (c : Dev nD) (t : Fin cfg0.N) :
    (dat0 V c).flushed 3 t
      = ((cfg0.win 3).blk t).view.read (Elt Ideal) (affineRelu (V c main_v17) (V c main_v18) (V c main_v19)) := by
  show (cfg0.win 3).cut (grid0.coords t) ((dat0 V c).after 3 t) = _
  rw [after0_3]
  unfold out0_3
  rw [View.canon_unit_zero hz]
  simp only [View.ld_unit_zero (S := S4000x256) hz, View.ld_unit_zero (S := S256x256) hz, View.ld_unit_zero (S := S1x256) hz]
  funext j
  obtain ⟨a, f, rfl⟩ : ∃ (a : Fin 4000) (f : Fin 256), j = ix2 a f := ⟨j 0, j 1, eq_ix2 j⟩
  show k0_pay1 (F := Ideal) (iblk0 V c 0 t) (iblk0 V c 1 t) (iblk0 V c 2 t) (ix2 a f)
    = affineRelu (V c main_v17) (V c main_v18) (V c main_v19) (((cfg0.win 3).blk t).view.emb (ix2 a f))
  rw [emb_out]
  refine (payload_apply (iblk0 V c 0 t) (iblk0 V c 1 t) (iblk0 V c 2 t) a f).trans ?_
  rw [read_b]
  refine congrArg₂ max (congrArg₂ (· + ·) (Finset.sum_congr rfl fun k _ => ?_) rfl) rfl
  rw [read_lhs, read_w]

/-- An index of the result array is in point `t`'s block iff each coordinate is in the block's range. -/
theorem mem_blk (t : Fin cfg0.N) (i : S20000x256.Idx) :
    i ∈ ((cfg0.win 3).blk t).view.set ↔ ∀ a : Fin 2, win0_3.index t a * S4000x256.size a ≤ (i a).val ∧ (i a).val < win0_3.index t a * S4000x256.size a + S4000x256.size a := by
  show i ∈ ((View.whole main_v20).slice (win0_3.rect t)).set ↔ _
  rw [View.set_slice_whole, Rect.mem_set_unit]
  exact Iff.rfl

/-- Every index of the result array is in the block of the point its row falls in. -/
theorem cover (i : S20000x256.Idx) : ∃ t : Fin cfg0.N, (cfg0.win 3).flush t = true ∧ i ∈ ((cfg0.win 3).blk t).view.set := by
  have hi0 : (i 0).val < 20000 := (i 0).isLt
  have hi1 : (i 1).val < 256 := (i 1).isLt
  have hN := N_0
  let t : Fin cfg0.N := ⟨(i 0).val / 4000, by show (i 0).val / 4000 < grid0.N; omega⟩
  obtain ⟨-, -, -, -, -, -, e6, e7⟩ := idx_facts t
  have ht : t.val = (i 0).val / 4000 := rfl
  refine ⟨t, flush0_3 t, ?_⟩
  rw [mem_blk]
  intro a
  match a with
  | ⟨0, _⟩ => show win0_3.index t (0 : Fin 2) * 4000 ≤ (i 0).val ∧ (i 0).val < win0_3.index t (0 : Fin 2) * 4000 + 4000; omega
  | ⟨1, _⟩ => show win0_3.index t (1 : Fin 2) * 256 ≤ (i 1).val ∧ (i 1).val < win0_3.index t (1 : Fin 2) * 256 + 256; omega

/-- After the call the result array is the rectified layer of the operand arrays as the call found them. -/
theorem final (c : Dev nD) :
    (dat0 V c).arrAt 3 cfg0.N = affineRelu (V c main_v17) (V c main_v18) (V c main_v19) :=
  (dat0 V c).arrAt_eq_of_cover 3 _ (fun t _ => flushed_eq V c t) cover

end Cert.KernelIdeal.Region0

end
-- ==== Proof.Region1.lean ====
/-
  The second pallas_call: the first convolution's feature transform.

  The call tiles the `20000` rows of its left operand into five blocks of `4000` rows; at grid point `t` the body reads
  rows `4000·t … 4000·t + 3999` of the left operand and the whole weight matrix, and stores their product into rows
  `4000·t … 4000·t + 3999` of the result. The five blocks tile the result, so after the call the result array is the
  matrix product of the two operand arrays as the call found them.
-/
import proofs.«154297_j86698209837427_1_alg».proof.Proof.Gen.KernelIdeal.Frame
import proofs.«154297_j86698209837427_1_alg».proof.Proof.Linear

noncomputable section

open scoped BigOperators

namespace Cert.KernelIdeal.Region1

open Cert.KernelIdeal Cert.KernelIdeal.Gen Idealize.ShloMosaic Idealize.ShloMosaic.TcCoe Idealize.SL.Sem
open Idealize.ShloMosaic.ValueIdx ChebAlgebra

variable (V : (c : Dev nD) → (b : Ref sig .tc) → Buf (Elt Ideal) ((c : Thread nD τ).loc b))

theorem hz : (![0, 0] : Fin 2 → Nat) = fun _ => 0 := funext fun a => by fin_cases a <;> rfl

/-- The body's stored value at row `a`, column `f` of the block: the inner product of row `a` of the left block with
    column `f` of the weights. -/
theorem payload_apply (x0 : FVec Ideal S4000x256 .bf16) (x1 : FVec Ideal S256x256 .bf16) (a : Fin 4000) (f : Fin 256) :
    k1_pay1 (F := Ideal) x0 x1 (ix2 a f) = ∑ k : Fin 256, x0 (ix2 a k) * x1 (ix2 k f) := by
  unfold k1_pay1
  rw [shapeCast_self, shapeCast_self]
  exact MatmulForms.matmul_zero_mm_apply _ rfl rfl rfl rfl rfl rfl none x0 x1 a f

/-- The printed index maps over the grid: the left operand's and the result's block row index is the grid point, every
    other block index is zero. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row `a` of block `t` is row `4000·t + a` of the array. -/
def row (t : Fin cfg1.N) (a : Fin 4000) : Fin 20000 :=
  ⟨t.val * 4000 + a.val, by have h : t.val < cfg1.N := t.isLt; have hN : cfg1.N = 5 := N_1; have := a.isLt; omega⟩

/-- The left operand's block at point `t`, read at `(a, k)`. -/
theorem read_lhs (c : Dev nD) (t : Fin cfg1.N) (a : Fin 4000) (k : Fin 256) :
    iblk1 V c 0 t (ix2 a k) = V c main_v21 (ix2 (row t a) k) := by
  obtain ⟨e0, e1, -⟩ := idx_facts t
  show V c main_v21 (((cfg1.win 0).blk t).view.emb (ix2 a k)) = V c main_v21 (ix2 (row t a) k)
  refine congrArg (V c main_v21) (funext fun d => Fin.ext ?_)
  match d with
  | ⟨0, _⟩ => show win1_0.index t (0 : Fin 2) * 4000 + 1 * a.val = t.val * 4000 + a.val; omega
  | ⟨1, _⟩ => show win1_0.index t (1 : Fin 2) * 256 + 1 * k.val = k.val; omega

/-- The weights' block at any point is the whole weight matrix. -/
theorem read_w (c : Dev nD) (t : Fin cfg1.N) (k : Fin 256) (f : Fin 256) :
    iblk1 V c 1 t (ix2 k f) = V c main_v22 (ix2 k f) := by
  obtain ⟨-, -, e2, e3, -⟩ := idx_facts t
  show V c main_v22 (((cfg1.win 1).blk t).view.emb (ix2 k f)) = V c main_v22 (ix2 k f)
  refine congrArg (V c main_v22) (funext fun d => Fin.ext ?_)
  match d with
  | ⟨0, _⟩ => show win1_1.index t (0 : Fin 2) * 256 + 1 * k.val = k.val; omega
  | ⟨1, _⟩ => show win1_1.index t (1 : Fin 2) * 256 + 1 * f.val = f.val; omega

/-- Where entry `(a, f)` of the result's block at point `t` sits in the result array. -/
theorem emb_out (t : Fin cfg1.N) (a : Fin 4000) (f : Fin 256) :
    ((cfg1.win 2).blk t).view.emb (ix2 a f) = ix2 (row t a) f := by
  obtain ⟨-, -, -, -, e4, e5⟩ := idx_facts t
  refine funext fun d => Fin.ext ?_
  match d with
  | ⟨0, _⟩ => show win1_2.index t (0 : Fin 2) * 4000 + 1 * a.val = t.val * 4000 + a.val; omega
  | ⟨1, _⟩ => show win1_2.index t (1 : Fin 2) * 256 + 1 * f.val = f.val; omega

/-- What point `t` writes back is block `t` of the matrix product of the operand arrays. -/
theorem flushed_eq (c : Dev nD) (t : Fin cfg1.N) :
    (dat1 V c).flushed 2 t = ((cfg1.win 2).blk t).view.read (Elt Ideal) (mm (V c main_v21) (V c main_v22)) := by
  show (cfg1.win 2).cut (grid1.coords t) ((dat1 V c).after 2 t) = _
  rw [after1_2]
  unfold out1_2
  rw [View.canon_unit_zero hz]
  simp only [View.ld_unit_zero (S := S4000x256) hz, View.ld_unit_zero (S := S256x256) hz]
  funext j
  obtain ⟨a, f, rfl⟩ : ∃ (a : Fin 4000) (f : Fin 256), j = ix2 a f := ⟨j 0, j 1, eq_ix2 j⟩
  show k1_pay1 (F := Ideal) (iblk1 V c 0 t) (iblk1 V c 1 t) (ix2 a f)
    = mm (V c main_v21) (V c main_v22) (((cfg1.win 2).blk t).view.emb (ix2 a f))
  rw [emb_out]
  refine (payload_apply (iblk1 V c 0 t) (iblk1 V c 1 t) a f).trans ?_
  refine Finset.sum_congr rfl fun k _ => ?_
  rw [read_lhs, read_w]

/-- An index of the result array is in point `t`'s block iff each coordinate is in the block's range. -/
theorem mem_blk (t : Fin cfg1.N) (i : S20000x256.Idx) :
    i ∈ ((cfg1.win 2).blk t).view.set ↔ ∀ a : Fin 2, win1_2.index t a * S4000x256.size a ≤ (i a).val ∧ (i a).val < win1_2.index t a * S4000x256.size a + S4000x256.size a := by
  show i ∈ ((View.whole main_v23).slice (win1_2.rect t)).set ↔ _
  rw [View.set_slice_whole, Rect.mem_set_unit]
  exact Iff.rfl

/-- Every index of the result array is in the block of the point its row falls in. -/
theorem cover (i : S20000x256.Idx) : ∃ t : Fin cfg1.N, (cfg1.win 2).flush t = true ∧ i ∈ ((cfg1.win 2).blk t).view.set := by
  have hi0 : (i 0).val < 20000 := (i 0).isLt
  have hi1 : (i 1).val < 256 := (i 1).isLt
  have hN := N_1
  let t : Fin cfg1.N := ⟨(i 0).val / 4000, by show (i 0).val / 4000 < grid1.N; omega⟩
  obtain ⟨-, -, -, -, e4, e5⟩ := idx_facts t
  have ht : t.val = (i 0).val / 4000 := rfl
  refine ⟨t, flush1_2 t, ?_⟩
  rw [mem_blk]
  intro a
  match a with
  | ⟨0, _⟩ => show win1_2.index t (0 : Fin 2) * 4000 ≤ (i 0).val ∧ (i 0).val < win1_2.index t (0 : Fin 2) * 4000 + 4000; omega
  | ⟨1, _⟩ => show win1_2.index t (1 : Fin 2) * 256 ≤ (i 1).val ∧ (i 1).val < win1_2.index t (1 : Fin 2) * 256 + 256; omega

/-- After the call the result array is the matrix product of the operand arrays as the call found them. -/
theorem final (c : Dev nD) : (dat1 V c).arrAt 2 cfg1.N = mm (V c main_v21) (V c main_v22) :=
  (dat1 V c).arrAt_eq_of_cover 2 _ (fun t _ => flushed_eq V c t) cover

end Cert.KernelIdeal.Region1

end
-- ==== Proof.Region2.lean ====
/-
  The third pallas_call: the second convolution's feature transform.

  The call tiles the `20000` rows of its left operand into five blocks of `4000` rows; at grid point `t` the body reads
  rows `4000·t … 4000·t + 3999` of the left operand and the whole weight matrix, and stores their product into rows
  `4000·t … 4000·t + 3999` of the result. The five blocks tile the result, so after the call the result array is the
  matrix product of the two operand arrays as the call found them.
-/
import proofs.«154297_j86698209837427_1_alg».proof.Proof.Gen.KernelIdeal.Frame
import proofs.«154297_j86698209837427_1_alg».proof.Proof.Linear

noncomputable section

open scoped BigOperators

namespace Cert.KernelIdeal.Region2

open Cert.KernelIdeal Cert.KernelIdeal.Gen Idealize.ShloMosaic Idealize.ShloMosaic.TcCoe Idealize.SL.Sem
open Idealize.ShloMosaic.ValueIdx ChebAlgebra

variable (V : (c : Dev nD) → (b : Ref sig .tc) → Buf (Elt Ideal) ((c : Thread nD τ).loc b))

theorem hz : (![0, 0] : Fin 2 → Nat) = fun _ => 0 := funext fun a => by fin_cases a <;> rfl

/-- The body's stored value at row `a`, column `f` of the block: the inner product of row `a` of the left block with
    column `f` of the weights. -/
theorem payload_apply (x0 : FVec Ideal S4000x256 .bf16) (x1 : FVec Ideal S256x256 .bf16) (a : Fin 4000) (f : Fin 256) :
    k2_pay1 (F := Ideal) x0 x1 (ix2 a f) = ∑ k : Fin 256, x0 (ix2 a k) * x1 (ix2 k f) := by
  unfold k2_pay1
  rw [shapeCast_self, shapeCast_self]
  exact MatmulForms.matmul_zero_mm_apply _ rfl rfl rfl rfl rfl rfl none x0 x1 a f

/-- The printed index maps over the grid: the left operand's and the result's block row index is the grid point, every
    other block index is zero. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row `a` of block `t` is row `4000·t + a` of the array. -/
def row (t : Fin cfg2.N) (a : Fin 4000) : Fin 20000 :=
  ⟨t.val * 4000 + a.val, by have h : t.val < cfg2.N := t.isLt; have hN : cfg2.N = 5 := N_2; have := a.isLt; omega⟩

/-- The left operand's block at point `t`, read at `(a, k)`. -/
theorem read_lhs (c : Dev nD) (t : Fin cfg2.N) (a : Fin 4000) (k : Fin 256) :
    iblk2 V c 0 t (ix2 a k) = V c main_v55 (ix2 (row t a) k) := by
  obtain ⟨e0, e1, -⟩ := idx_facts t
  show V c main_v55 (((cfg2.win 0).blk t).view.emb (ix2 a k)) = V c main_v55 (ix2 (row t a) k)
  refine congrArg (V c main_v55) (funext fun d => Fin.ext ?_)
  match d with
  | ⟨0, _⟩ => show win2_0.index t (0 : Fin 2) * 4000 + 1 * a.val = t.val * 4000 + a.val; omega
  | ⟨1, _⟩ => show win2_0.index t (1 : Fin 2) * 256 + 1 * k.val = k.val; omega

/-- The weights' block at any point is the whole weight matrix. -/
theorem read_w (c : Dev nD) (t : Fin cfg2.N) (k : Fin 256) (f : Fin 256) :
    iblk2 V c 1 t (ix2 k f) = V c main_v56 (ix2 k f) := by
  obtain ⟨-, -, e2, e3, -⟩ := idx_facts t
  show V c main_v56 (((cfg2.win 1).blk t).view.emb (ix2 k f)) = V c main_v56 (ix2 k f)
  refine congrArg (V c main_v56) (funext fun d => Fin.ext ?_)
  match d with
  | ⟨0, _⟩ => show win2_1.index t (0 : Fin 2) * 256 + 1 * k.val = k.val; omega
  | ⟨1, _⟩ => show win2_1.index t (1 : Fin 2) * 256 + 1 * f.val = f.val; omega

/-- Where entry `(a, f)` of the result's block at point `t` sits in the result array. -/
theorem emb_out (t : Fin cfg2.N) (a : Fin 4000) (f : Fin 256) :
    ((cfg2.win 2).blk t).view.emb (ix2 a f) = ix2 (row t a) f := by
  obtain ⟨-, -, -, -, e4, e5⟩ := idx_facts t
  refine funext fun d => Fin.ext ?_
  match d with
  | ⟨0, _⟩ => show win2_2.index t (0 : Fin 2) * 4000 + 1 * a.val = t.val * 4000 + a.val; omega
  | ⟨1, _⟩ => show win2_2.index t (1 : Fin 2) * 256 + 1 * f.val = f.val; omega

/-- What point `t` writes back is block `t` of the matrix product of the operand arrays. -/
theorem flushed_eq (c : Dev nD) (t : Fin cfg2.N) :
    (dat2 V c).flushed 2 t = ((cfg2.win 2).blk t).view.read (Elt Ideal) (mm (V c main_v55) (V c main_v56)) := by
  show (cfg2.win 2).cut (grid2.coords t) ((dat2 V c).after 2 t) = _
  rw [after2_2]
  unfold out2_2
  rw [View.canon_unit_zero hz]
  simp only [View.ld_unit_zero (S := S4000x256) hz, View.ld_unit_zero (S := S256x256) hz]
  funext j
  obtain ⟨a, f, rfl⟩ : ∃ (a : Fin 4000) (f : Fin 256), j = ix2 a f := ⟨j 0, j 1, eq_ix2 j⟩
  show k2_pay1 (F := Ideal) (iblk2 V c 0 t) (iblk2 V c 1 t) (ix2 a f)
    = mm (V c main_v55) (V c main_v56) (((cfg2.win 2).blk t).view.emb (ix2 a f))
  rw [emb_out]
  refine (payload_apply (iblk2 V c 0 t) (iblk2 V c 1 t) a f).trans ?_
  refine Finset.sum_congr rfl fun k _ => ?_
  rw [read_lhs, read_w]

/-- An index of the result array is in point `t`'s block iff each coordinate is in the block's range. -/
theorem mem_blk (t : Fin cfg2.N) (i : S20000x256.Idx) :
    i ∈ ((cfg2.win 2).blk t).view.set ↔ ∀ a : Fin 2, win2_2.index t a * S4000x256.size a ≤ (i a).val ∧ (i a).val < win2_2.index t a * S4000x256.size a + S4000x256.size a := by
  show i ∈ ((View.whole main_v57).slice (win2_2.rect t)).set ↔ _
  rw [View.set_slice_whole, Rect.mem_set_unit]
  exact Iff.rfl

/-- Every index of the result array is in the block of the point its row falls in. -/
theorem cover (i : S20000x256.Idx) : ∃ t : Fin cfg2.N, (cfg2.win 2).flush t = true ∧ i ∈ ((cfg2.win 2).blk t).view.set := by
  have hi0 : (i 0).val < 20000 := (i 0).isLt
  have hi1 : (i 1).val < 256 := (i 1).isLt
  have hN := N_2
  let t : Fin cfg2.N := ⟨(i 0).val / 4000, by show (i 0).val / 4000 < grid2.N; omega⟩
  obtain ⟨-, -, -, -, e4, e5⟩ := idx_facts t
  have ht : t.val = (i 0).val / 4000 := rfl
  refine ⟨t, flush2_2 t, ?_⟩
  rw [mem_blk]
  intro a
  match a with
  | ⟨0, _⟩ => show win2_2.index t (0 : Fin 2) * 4000 ≤ (i 0).val ∧ (i 0).val < win2_2.index t (0 : Fin 2) * 4000 + 4000; omega
  | ⟨1, _⟩ => show win2_2.index t (1 : Fin 2) * 256 ≤ (i 1).val ∧ (i 1).val < win2_2.index t (1 : Fin 2) * 256 + 256; omega

/-- After the call the result array is the matrix product of the operand arrays as the call found them. -/
theorem final (c : Dev nD) : (dat2 V c).arrAt 2 cfg2.N = mm (V c main_v55) (V c main_v56) :=
  (dat2 V c).arrAt_eq_of_cover 2 _ (fun t _ => flushed_eq V c t) cover

end Cert.KernelIdeal.Region2

end
-- ==== Proof.Region3.lean ====
/-
  The fourth pallas_call: the classifier layer.

  The call tiles the `20000` rows of its left operand into five blocks of `4000` rows; at grid point `t` the body reads
  rows `4000·t … 4000·t + 3999` of the left operand, the whole weight matrix and the whole bias row, and stores
  `X·W + b` of them into rows `4000·t … 4000·t + 3999` of the result. The five blocks tile the result, so after
  the call the result array is the affine layer of the three operand arrays as the call found them.
-/
import proofs.«154297_j86698209837427_1_alg».proof.Proof.Gen.KernelIdeal.Frame
import proofs.«154297_j86698209837427_1_alg».proof.Proof.Linear

noncomputable section

open scoped BigOperators

namespace Cert.KernelIdeal.Region3

open Cert.KernelIdeal Cert.KernelIdeal.Gen Idealize.ShloMosaic Idealize.ShloMosaic.TcCoe Idealize.SL.Sem
open Idealize.ShloMosaic.ValueIdx Cert.Linear

variable (V : (c : Dev nD) → (b : Ref sig .tc) → Buf (Elt Ideal) ((c : Thread nD τ).loc b))

theorem hz : (![0, 0] : Fin 2 → Nat) = fun _ => 0 := funext fun a => by fin_cases a <;> rfl

/-- The body's stored value at row `a`, column `f` of the block: the inner product of row `a` of the left block with
    column `f` of the weights, plus the bias at `f`. -/
theorem payload_apply (x0 : FVec Ideal S4000x256 .bf16) (x1 : FVec Ideal S256x3 .bf16) (x2 : FVec Ideal S1x3 .f32)
    (a : Fin 4000) (f : Fin 3) :
    k3_pay1 (F := Ideal) x0 x1 x2 (ix2 a f)
      = (∑ k : Fin 256, x0 (ix2 a k) * x1 (ix2 k f)) + x2 (ix2 (0 : Fin 1) f) := by
  unfold k3_pay1
  refine congrArg₂ (· + ·) ?_ ?_
  · rw [shapeCast_self, shapeCast_self]
    exact MatmulForms.matmul_zero_mm_apply _ rfl rfl rfl rfl rfl rfl none x0 x1 a f
  · rw [shapeCast_self]
    exact broadcastTo_1b_ab_apply x2 _ a f

/-- The printed index maps over the grid: the left operand's and the result's block row index is the grid point, every
    other block index is zero. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Row `a` of block `t` is row `4000·t + a` of the array. -/
def row (t : Fin cfg3.N) (a : Fin 4000) : Fin 20000 := ⟨t.val * 4000 + a.val, by have h : t.val < cfg3.N := t.isLt; have hN : cfg3.N = 5 := N_3; have := a.isLt; omega⟩

/-- The left operand's block at point `t`, read at `(a, k)`. -/
theorem read_lhs (c : Dev nD) (t : Fin cfg3.N) (a : Fin 4000) (k : Fin 256) :
    iblk3 V c 0 t (ix2 a k) = V c main_v89 (ix2 (row t a) k) := by
  obtain ⟨e0, e1, -⟩ := idx_facts t
  show V c main_v89 (((cfg3.win 0).blk t).view.emb (ix2 a k)) = V c main_v89 (ix2 (row t a) k)
  refine congrArg (V c main_v89) (funext fun d => Fin.ext ?_)
  match d with
  | ⟨0, _⟩ => show win3_0.index t (0 : Fin 2) * 4000 + 1 * a.val = t.val * 4000 + a.val; omega
  | ⟨1, _⟩ => show win3_0.index t (1 : Fin 2) * 256 + 1 * k.val = k.val; omega

/-- The weights' block at any point is the whole weight matrix. -/
theorem read_w (c : Dev nD) (t : Fin cfg3.N) (k : Fin 256) (f : Fin 3) :
    iblk3 V c 1 t (ix2 k f) = V c main_v90 (ix2 k f) := by
  obtain ⟨-, -, e2, e3, -⟩ := idx_facts t
  show V c main_v90 (((cfg3.win 1).blk t).view.emb (ix2 k f)) = V c main_v90 (ix2 k f)
  refine congrArg (V c main_v90) (funext fun d => Fin.ext ?_)
  match d with
  | ⟨0, _⟩ => show win3_1.index t (0 : Fin 2) * 256 + 1 * k.val = k.val; omega
  | ⟨1, _⟩ => show win3_1.index t (1 : Fin 2) * 3 + 1 * f.val = f.val; omega

/-- The bias row's block at any point is the whole bias row. -/
theorem read_b (c : Dev nD) (t : Fin cfg3.N) (f : Fin 3) :
    iblk3 V c 2 t (ix2 (0 : Fin 1) f) = V c main_v91 (ix2 (0 : Fin 1) f) := by
  obtain ⟨-, -, -, -, e4, e5, -⟩ := idx_facts t
  show V c main_v91 (((cfg3.win 2).blk t).view.emb (ix2 (0 : Fin 1) f)) = V c main_v91 (ix2 (0 : Fin 1) f)
  refine congrArg (V c main_v91) (funext fun d => Fin.ext ?_)
  match d with
  | ⟨0, _⟩ => show win3_2.index t (0 : Fin 2) * 1 + 1 * 0 = 0; omega
  | ⟨1, _⟩ => show win3_2.index t (1 : Fin 2) * 3 + 1 * f.val = f.val; omega

/-- Where entry `(a, f)` of the result's block at point `t` sits in the result array. -/
theorem emb_out (t : Fin cfg3.N) (a : Fin 4000) (f : Fin 3) :
    ((cfg3.win 3).blk t).view.emb (ix2 a f) = ix2 (row t a) f := by
  obtain ⟨-, -, -, -, -, -, e6, e7⟩ := idx_facts t
  refine funext fun d => Fin.ext ?_
  match d with
  | ⟨0, _⟩ => show win3_3.index t (0 : Fin 2) * 4000 + 1 * a.val = t.val * 4000 + a.val; omega
  | ⟨1, _⟩ => show win3_3.index t (1 : Fin 2) * 3 + 1 * f.val = f.val; omega

/-- What point `t` writes back is block `t` of the affine layer of the operand arrays. -/
theorem flushed_eq (c : Dev nD) (t : Fin cfg3.N) :
    (dat3 V c).flushed 3 t
      = ((cfg3.win 3).blk t).view.read (Elt Ideal) (affine (V c main_v89) (V c main_v90) (V c main_v91)) := by
  show (cfg3.win 3).cut (grid3.coords t) ((dat3 V c).after 3 t) = _
  rw [after3_3]
  unfold out3_3
  rw [View.canon_unit_zero hz]
  simp only [View.ld_unit_zero (S := S4000x256) hz, View.ld_unit_zero (S := S256x3) hz, View.ld_unit_zero (S := S1x3) hz]
  funext j
  obtain ⟨a, f, rfl⟩ : ∃ (a : Fin 4000) (f : Fin 3), j = ix2 a f := ⟨j 0, j 1, eq_ix2 j⟩
  show k3_pay1 (F := Ideal) (iblk3 V c 0 t) (iblk3 V c 1 t) (iblk3 V c 2 t) (ix2 a f)
    = affine (V c main_v89) (V c main_v90) (V c main_v91) (((cfg3.win 3).blk t).view.emb (ix2 a f))
  rw [emb_out]
  refine (payload_apply (iblk3 V c 0 t) (iblk3 V c 1 t) (iblk3 V c 2 t) a f).trans ?_
  rw [read_b]
  refine congrArg₂ (· + ·) (Finset.sum_congr rfl fun k _ => ?_) rfl
  rw [read_lhs, read_w]

/-- An index of the result array is in point `t`'s block iff each coordinate is in the block's range. -/
theorem mem_blk (t : Fin cfg3.N) (i : S20000x3.Idx) :
    i ∈ ((cfg3.win 3).blk t).view.set ↔ ∀ a : Fin 2, win3_3.index t a * S4000x3.size a ≤ (i a).val ∧ (i a).val < win3_3.index t a * S4000x3.size a + S4000x3.size a := by
  show i ∈ ((View.whole main_v92).slice (win3_3.rect t)).set ↔ _
  rw [View.set_slice_whole, Rect.mem_set_unit]
  exact Iff.rfl

/-- Every index of the result array is in the block of the point its row falls in. -/
theorem cover (i : S20000x3.Idx) : ∃ t : Fin cfg3.N, (cfg3.win 3).flush t = true ∧ i ∈ ((cfg3.win 3).blk t).view.set := by
  have hi0 : (i 0).val < 20000 := (i 0).isLt
  have hi1 : (i 1).val < 3 := (i 1).isLt
  have hN := N_3
  let t : Fin cfg3.N := ⟨(i 0).val / 4000, by show (i 0).val / 4000 < grid3.N; omega⟩
  obtain ⟨-, -, -, -, -, -, e6, e7⟩ := idx_facts t
  have ht : t.val = (i 0).val / 4000 := rfl
  refine ⟨t, flush3_3 t, ?_⟩
  rw [mem_blk]
  intro a
  match a with
  | ⟨0, _⟩ => show win3_3.index t (0 : Fin 2) * 4000 ≤ (i 0).val ∧ (i 0).val < win3_3.index t (0 : Fin 2) * 4000 + 4000; omega
  | ⟨1, _⟩ => show win3_3.index t (1 : Fin 2) * 3 ≤ (i 1).val ∧ (i 1).val < win3_3.index t (1 : Fin 2) * 3 + 3; omega

/-- After the call the result array is the affine layer of the operand arrays as the call found them. -/
theorem final (c : Dev nD) :
    (dat3 V c).arrAt 3 cfg3.N = affine (V c main_v89) (V c main_v90) (V c main_v91) :=
  (dat3 V c).arrAt_eq_of_cover 3 _ (fun t _ => flushed_eq V c t) cover

end Cert.KernelIdeal.Region3

end
-- ==== Proof.Chain.lean ====
/-
  The kernel program's buffers, boundary by boundary.

  The program alternates four stretches of host operations with four pallas_calls. Starting from the launch memory, each
  boundary's contents are read here at the buffers the next segment uses: after the first stretch the edge words with
  their self loops, the inverse square-root degrees and the embedding layer's operands; after the first call the
  rectified embedding `h0`; after the second call `h0·W1`; after the third stretch the first convolution `h1` (the shared
  aggregation of `h0·W1`); after the third call `h1·W2`; after the fourth stretch the second convolution `h2`; after the last
  call the classifier layer of `h2`. A buffer that a segment does not write keeps its contents through it.
-/
import proofs.«154297_j86698209837427_1_alg».proof.Proof.Gen.KernelIdeal.Frame
import proofs.«154297_j86698209837427_1_alg».proof.Proof.HostGlue
import proofs.«154297_j86698209837427_1_alg».proof.Proof.Linear
import proofs.«154297_j86698209837427_1_alg».proof.Proof.Region0
import proofs.«154297_j86698209837427_1_alg».proof.Proof.Region1
import proofs.«154297_j86698209837427_1_alg».proof.Proof.Region2
import proofs.«154297_j86698209837427_1_alg».proof.Proof.Region3

set_option maxRecDepth 16384

noncomputable section

namespace Cert.KernelIdeal.Chain

open Cert.KernelIdeal Cert.KernelIdeal.Gen Cert.KernelIdeal.Glue
open Idealize.ShloMosaic Idealize.ShloMosaic.TcCoe Idealize.ShloMosaic.StableHlo Idealize.SL.Sem
open Cert.Linear ChebAlgebra

variable (m : (ℓ : Loc nD τ sig) → Buf (Elt Ideal) ℓ) (ρ : Dev nD → PrngReg) (c : Dev nD)

/-! ## The values the network passes along, as functions of the launch memory -/

/-- The source node words of the edges, self loops appended. -/
def src : (⟨S340000, .i32⟩ : BufTy).Contents (Elt Ideal) := srcOf (m ((c : Thread nD τ).loc main_arg1))
/-- The destination node words of the edges, self loops appended. -/
def dst : (⟨S340000, .i32⟩ : BufTy).Contents (Elt Ideal) := dstOf (m ((c : Thread nD τ).loc main_arg1))
/-- The inverse square root of every node's in-degree. -/
def dinv : (⟨S20000, .f32⟩ : BufTy).Contents (Elt Ideal) := dinvOf (dst m c)
/-- The rectified embedding of the node features. -/
def h0 : S20000x256.Idx → EReal := affineRelu (m ((c : Thread nD τ).loc main_arg0)) (m ((c : Thread nD τ).loc main_arg2)) (shapeCast S1x256 (m ((c : Thread nD τ).loc main_arg3)) shapeCasts_S256_S1x256)
/-- The first convolution's transformed features. -/
def hw1 : S20000x256.Idx → EReal := mm (h0 m c) (m ((c : Thread nD τ).loc main_arg4))
/-- The first convolution. -/
def h1 : S20000x256.Idx → EReal := agg (src m c) (dst m c) (dinv m c) (hw1 m c) (m ((c : Thread nD τ).loc main_arg5))
/-- The second convolution's transformed features. -/
def hw2 : S20000x256.Idx → EReal := mm (h1 m c) (m ((c : Thread nD τ).loc main_arg6))
/-- The second convolution. -/
def h2 : S20000x256.Idx → EReal := agg (src m c) (dst m c) (dinv m c) (hw2 m c) (m ((c : Thread nD τ).loc main_arg7))
/-- The class scores. -/
def out : S20000x3.Idx → EReal := affine (h2 m c) (m ((c : Thread nD τ).loc main_arg8)) (shapeCast S1x3 (m ((c : Thread nD τ).loc main_arg9)) shapeCasts_S3_S1x3)

/-! ## After the first host stretch -/

theorem W1_v3 : W1 m ρ c (Proc.devRef .tc main_v3) = src m c := by
  show StableHlo.after hostOps0 (W0 m ρ c) (Proc.devRef .tc main_v3) = _
  dsimp only [hostOps0]; after_results_simp; rfl
theorem W1_v6 : W1 m ρ c (Proc.devRef .tc main_v6) = dst m c := by
  show StableHlo.after hostOps0 (W0 m ρ c) (Proc.devRef .tc main_v6) = _
  dsimp only [hostOps0]; after_results_simp; rfl
theorem W1_v16 : W1 m ρ c (Proc.devRef .tc main_v16) = dinv m c := by
  show StableHlo.after hostOps0 (W0 m ρ c) (Proc.devRef .tc main_v16) = _
  dsimp only [hostOps0]; after_results_simp; rfl
theorem W1_arg4 : W1 m ρ c (Proc.devRef .tc main_arg4) = m ((c : Thread nD τ).loc main_arg4) := by
  show StableHlo.after hostOps0 (W0 m ρ c) (Proc.devRef .tc main_arg4) = _
  dsimp only [hostOps0]; after_results_simp
theorem W1_arg5 : W1 m ρ c (Proc.devRef .tc main_arg5) = m ((c : Thread nD τ).loc main_arg5) := by
  show StableHlo.after hostOps0 (W0 m ρ c) (Proc.devRef .tc main_arg5) = _
  dsimp only [hostOps0]; after_results_simp
theorem W1_arg6 : W1 m ρ c (Proc.devRef .tc main_arg6) = m ((c : Thread nD τ).loc main_arg6) := by
  show StableHlo.after hostOps0 (W0 m ρ c) (Proc.devRef .tc main_arg6) = _
  dsimp only [hostOps0]; after_results_simp
theorem W1_arg7 : W1 m ρ c (Proc.devRef .tc main_arg7) = m ((c : Thread nD τ).loc main_arg7) := by
  show StableHlo.after hostOps0 (W0 m ρ c) (Proc.devRef .tc main_arg7) = _
  dsimp only [hostOps0]; after_results_simp
theorem W1_arg8 : W1 m ρ c (Proc.devRef .tc main_arg8) = m ((c : Thread nD τ).loc main_arg8) := by
  show StableHlo.after hostOps0 (W0 m ρ c) (Proc.devRef .tc main_arg8) = _
  dsimp only [hostOps0]; after_results_simp
theorem W1_arg9 : W1 m ρ c (Proc.devRef .tc main_arg9) = m ((c : Thread nD τ).loc main_arg9) := by
  show StableHlo.after hostOps0 (W0 m ρ c) (Proc.devRef .tc main_arg9) = _
  dsimp only [hostOps0]; after_results_simp
theorem V1_v17 : (V1 m ρ c main_v17 : S20000x256.Idx → EReal) = m ((c : Thread nD τ).loc main_arg0) := by
  show StableHlo.after hostOps0 (W0 m ρ c) (Proc.devRef .tc main_v17) = _
  dsimp only [hostOps0]; after_results_simp
  rfl
theorem V1_v18 : (V1 m ρ c main_v18 : S256x256.Idx → EReal) = m ((c : Thread nD τ).loc main_arg2) := by
  show StableHlo.after hostOps0 (W0 m ρ c) (Proc.devRef .tc main_v18) = _
  dsimp only [hostOps0]; after_results_simp
  rfl
theorem V1_v19 : (V1 m ρ c main_v19 : S1x256.Idx → EReal) = shapeCast S1x256 (m ((c : Thread nD τ).loc main_arg3)) shapeCasts_S256_S1x256 := by
  show StableHlo.after hostOps0 (W0 m ρ c) (Proc.devRef .tc main_v19) = _
  dsimp only [hostOps0]; after_results_simp
  rfl

/-! ## After the first call -/

theorem W2_v20 : (W2 m ρ c (Proc.devRef .tc main_v20) : S20000x256.Idx → EReal) = h0 m c := by
  refine (W2_arr m ρ c 3).trans ((Region0.final (V1 m ρ) c).trans ?_)
  rw [V1_v17, V1_v18, V1_v19]; rfl
theorem W2_v3 : W2 m ρ c (Proc.devRef .tc main_v3) = src m c :=
  (W2_of_ne m ρ c main_v3 (by decide)).trans (W1_v3 m ρ c)
theorem W2_v6 : W2 m ρ c (Proc.devRef .tc main_v6) = dst m c :=
  (W2_of_ne m ρ c main_v6 (by decide)).trans (W1_v6 m ρ c)
theorem W2_v16 : W2 m ρ c (Proc.devRef .tc main_v16) = dinv m c :=
  (W2_of_ne m ρ c main_v16 (by decide)).trans (W1_v16 m ρ c)
theorem W2_arg4 : W2 m ρ c (Proc.devRef .tc main_arg4) = m ((c : Thread nD τ).loc main_arg4) :=
  (W2_of_ne m ρ c main_arg4 (by decide)).trans (W1_arg4 m ρ c)
theorem W2_arg5 : W2 m ρ c (Proc.devRef .tc main_arg5) = m ((c : Thread nD τ).loc main_arg5) :=
  (W2_of_ne m ρ c main_arg5 (by decide)).trans (W1_arg5 m ρ c)
theorem W2_arg6 : W2 m ρ c (Proc.devRef .tc main_arg6) = m ((c : Thread nD τ).loc main_arg6) :=
  (W2_of_ne m ρ c main_arg6 (by decide)).trans (W1_arg6 m ρ c)
theorem W2_arg7 : W2 m ρ c (Proc.devRef .tc main_arg7) = m ((c : Thread nD τ).loc main_arg7) :=
  (W2_of_ne m ρ c main_arg7 (by decide)).trans (W1_arg7 m ρ c)
theorem W2_arg8 : W2 m ρ c (Proc.devRef .tc main_arg8) = m ((c : Thread nD τ).loc main_arg8) :=
  (W2_of_ne m ρ c main_arg8 (by decide)).trans (W1_arg8 m ρ c)
theorem W2_arg9 : W2 m ρ c (Proc.devRef .tc main_arg9) = m ((c : Thread nD τ).loc main_arg9) :=
  (W2_of_ne m ρ c main_arg9 (by decide)).trans (W1_arg9 m ρ c)

/-! ## After the second host stretch -/

theorem V3_v21 : (V3 m ρ c main_v21 : S20000x256.Idx → EReal) = h0 m c := by
  show StableHlo.after hostOps1 (W2 m ρ c) (Proc.devRef .tc main_v21) = _
  dsimp only [hostOps1]; after_results_simp
  exact W2_v20 m ρ c
theorem V3_v22 : (V3 m ρ c main_v22 : S256x256.Idx → EReal) = m ((c : Thread nD τ).loc main_arg4) := by
  show StableHlo.after hostOps1 (W2 m ρ c) (Proc.devRef .tc main_v22) = _
  dsimp only [hostOps1]; after_results_simp
  exact W2_arg4 m ρ c
theorem W3_v3 : W3 m ρ c (Proc.devRef .tc main_v3) = src m c := by
  show StableHlo.after hostOps1 (W2 m ρ c) (Proc.devRef .tc main_v3) = _
  dsimp only [hostOps1]; after_results_simp; exact W2_v3 m ρ c
theorem W3_v6 : W3 m ρ c (Proc.devRef .tc main_v6) = dst m c := by
  show StableHlo.after hostOps1 (W2 m ρ c) (Proc.devRef .tc main_v6) = _
  dsimp only [hostOps1]; after_results_simp; exact W2_v6 m ρ c
theorem W3_v16 : W3 m ρ c (Proc.devRef .tc main_v16) = dinv m c := by
  show StableHlo.after hostOps1 (W2 m ρ c) (Proc.devRef .tc main_v16) = _
  dsimp only [hostOps1]; after_results_simp; exact W2_v16 m ρ c
theorem W3_arg5 : W3 m ρ c (Proc.devRef .tc main_arg5) = m ((c : Thread nD τ).loc main_arg5) := by
  show StableHlo.after hostOps1 (W2 m ρ c) (Proc.devRef .tc main_arg5) = _
  dsimp only [hostOps1]; after_results_simp; exact W2_arg5 m ρ c
theorem W3_arg6 : W3 m ρ c (Proc.devRef .tc main_arg6) = m ((c : Thread nD τ).loc main_arg6) := by
  show StableHlo.after hostOps1 (W2 m ρ c) (Proc.devRef .tc main_arg6) = _
  dsimp only [hostOps1]; after_results_simp; exact W2_arg6 m ρ c
theorem W3_arg7 : W3 m ρ c (Proc.devRef .tc main_arg7) = m ((c : Thread nD τ).loc main_arg7) := by
  show StableHlo.after hostOps1 (W2 m ρ c) (Proc.devRef .tc main_arg7) = _
  dsimp only [hostOps1]; after_results_simp; exact W2_arg7 m ρ c
theorem W3_arg8 : W3 m ρ c (Proc.devRef .tc main_arg8) = m ((c : Thread nD τ).loc main_arg8) := by
  show StableHlo.after hostOps1 (W2 m ρ c) (Proc.devRef .tc main_arg8) = _
  dsimp only [hostOps1]; after_results_simp; exact W2_arg8 m ρ c
theorem W3_arg9 : W3 m ρ c (Proc.devRef .tc main_arg9) = m ((c : Thread nD τ).loc main_arg9) := by
  show StableHlo.after hostOps1 (W2 m ρ c) (Proc.devRef .tc main_arg9) = _
  dsimp only [hostOps1]; after_results_simp; exact W2_arg9 m ρ c

/-! ## After the second call -/

theorem W4_v23 : (W4 m ρ c (Proc.devRef .tc main_v23) : S20000x256.Idx → EReal) = hw1 m c := by
  refine (W4_arr m ρ c 2).trans ((Region1.final (V3 m ρ) c).trans ?_)
  rw [V3_v21, V3_v22]; rfl
theorem W4_v3 : W4 m ρ c (Proc.devRef .tc main_v3) = src m c :=
  (W4_of_ne m ρ c main_v3 (by decide)).trans (W3_v3 m ρ c)
theorem W4_v6 : W4 m ρ c (Proc.devRef .tc main_v6) = dst m c :=
  (W4_of_ne m ρ c main_v6 (by decide)).trans (W3_v6 m ρ c)
theorem W4_v16 : W4 m ρ c (Proc.devRef .tc main_v16) = dinv m c :=
  (W4_of_ne m ρ c main_v16 (by decide)).trans (W3_v16 m ρ c)
theorem W4_arg5 : W4 m ρ c (Proc.devRef .tc main_arg5) = m ((c : Thread nD τ).loc main_arg5) :=
  (W4_of_ne m ρ c main_arg5 (by decide)).trans (W3_arg5 m ρ c)
theorem W4_arg6 : W4 m ρ c (Proc.devRef .tc main_arg6) = m ((c : Thread nD τ).loc main_arg6) :=
  (W4_of_ne m ρ c main_arg6 (by decide)).trans (W3_arg6 m ρ c)
theorem W4_arg7 : W4 m ρ c (Proc.devRef .tc main_arg7) = m ((c : Thread nD τ).loc main_arg7) :=
  (W4_of_ne m ρ c main_arg7 (by decide)).trans (W3_arg7 m ρ c)
theorem W4_arg8 : W4 m ρ c (Proc.devRef .tc main_arg8) = m ((c : Thread nD τ).loc main_arg8) :=
  (W4_of_ne m ρ c main_arg8 (by decide)).trans (W3_arg8 m ρ c)
theorem W4_arg9 : W4 m ρ c (Proc.devRef .tc main_arg9) = m ((c : Thread nD τ).loc main_arg9) :=
  (W4_of_ne m ρ c main_arg9 (by decide)).trans (W3_arg9 m ρ c)

/-! ## After the third host stretch -/

theorem V5_v55 : (V5 m ρ c main_v55 : S20000x256.Idx → EReal) = h1 m c := by
  show StableHlo.after hostOps2 (W4 m ρ c) (Proc.devRef .tc main_v55) = _
  dsimp only [hostOps2]; after_results_simp
  rw [W4_v3, W4_v6, W4_v16, W4_v23, W4_arg5]; rfl
theorem V5_v56 : (V5 m ρ c main_v56 : S256x256.Idx → EReal) = m ((c : Thread nD τ).loc main_arg6) := by
  show StableHlo.after hostOps2 (W4 m ρ c) (Proc.devRef .tc main_v56) = _
  dsimp only [hostOps2]; after_results_simp
  exact W4_arg6 m ρ c
theorem W5_v3 : W5 m ρ c (Proc.devRef .tc main_v3) = src m c := by
  show StableHlo.after hostOps2 (W4 m ρ c) (Proc.devRef .tc main_v3) = _
  dsimp only [hostOps2]; after_results_simp; exact W4_v3 m ρ c
theorem W5_v6 : W5 m ρ c (Proc.devRef .tc main_v6) = dst m c := by
  show StableHlo.after hostOps2 (W4 m ρ c) (Proc.devRef .tc main_v6) = _
  dsimp only [hostOps2]; after_results_simp; exact W4_v6 m ρ c
theorem W5_v16 : W5 m ρ c (Proc.devRef .tc main_v16) = dinv m c := by
  show StableHlo.after hostOps2 (W4 m ρ c) (Proc.devRef .tc main_v16) = _
  dsimp only [hostOps2]; after_results_simp; exact W4_v16 m ρ c
theorem W5_arg7 : W5 m ρ c (Proc.devRef .tc main_arg7) = m ((c : Thread nD τ).loc main_arg7) := by
  show StableHlo.after hostOps2 (W4 m ρ c) (Proc.devRef .tc main_arg7) = _
  dsimp only [hostOps2]; after_results_simp; exact W4_arg7 m ρ c
theorem W5_arg8 : W5 m ρ c (Proc.devRef .tc main_arg8) = m ((c : Thread nD τ).loc main_arg8) := by
  show StableHlo.after hostOps2 (W4 m ρ c) (Proc.devRef .tc main_arg8) = _
  dsimp only [hostOps2]; after_results_simp; exact W4_arg8 m ρ c
theorem W5_arg9 : W5 m ρ c (Proc.devRef .tc main_arg9) = m ((c : Thread nD τ).loc main_arg9) := by
  show StableHlo.after hostOps2 (W4 m ρ c) (Proc.devRef .tc main_arg9) = _
  dsimp only [hostOps2]; after_results_simp; exact W4_arg9 m ρ c

/-! ## After the third call -/

theorem W6_v57 : (W6 m ρ c (Proc.devRef .tc main_v57) : S20000x256.Idx → EReal) = hw2 m c := by
  refine (W6_arr m ρ c 2).trans ((Region2.final (V5 m ρ) c).trans ?_)
  rw [V5_v55, V5_v56]; rfl
theorem W6_v3 : W6 m ρ c (Proc.devRef .tc main_v3) = src m c :=
  (W6_of_ne m ρ c main_v3 (by decide)).trans (W5_v3 m ρ c)
theorem W6_v6 : W6 m ρ c (Proc.devRef .tc main_v6) = dst m c :=
  (W6_of_ne m ρ c main_v6 (by decide)).trans (W5_v6 m ρ c)
theorem W6_v16 : W6 m ρ c (Proc.devRef .tc main_v16) = dinv m c :=
  (W6_of_ne m ρ c main_v16 (by decide)).trans (W5_v16 m ρ c)
theorem W6_arg7 : W6 m ρ c (Proc.devRef .tc main_arg7) = m ((c : Thread nD τ).loc main_arg7) :=
  (W6_of_ne m ρ c main_arg7 (by decide)).trans (W5_arg7 m ρ c)
theorem W6_arg8 : W6 m ρ c (Proc.devRef .tc main_arg8) = m ((c : Thread nD τ).loc main_arg8) :=
  (W6_of_ne m ρ c main_arg8 (by decide)).trans (W5_arg8 m ρ c)
theorem W6_arg9 : W6 m ρ c (Proc.devRef .tc main_arg9) = m ((c : Thread nD τ).loc main_arg9) :=
  (W6_of_ne m ρ c main_arg9 (by decide)).trans (W5_arg9 m ρ c)

/-! ## After the fourth host stretch -/

theorem V7_v89 : (V7 m ρ c main_v89 : S20000x256.Idx → EReal) = h2 m c := by
  show StableHlo.after hostOps3 (W6 m ρ c) (Proc.devRef .tc main_v89) = _
  dsimp only [hostOps3]; after_results_simp
  rw [W6_v3, W6_v6, W6_v16, W6_v57, W6_arg7]; rfl
theorem V7_v90 : (V7 m ρ c main_v90 : S256x3.Idx → EReal) = m ((c : Thread nD τ).loc main_arg8) := by
  show StableHlo.after hostOps3 (W6 m ρ c) (Proc.devRef .tc main_v90) = _
  dsimp only [hostOps3]; after_results_simp
  exact W6_arg8 m ρ c
theorem V7_v91 : (V7 m ρ c main_v91 : S1x3.Idx → EReal) = shapeCast S1x3 (m ((c : Thread nD τ).loc main_arg9)) shapeCasts_S3_S1x3 := by
  show StableHlo.after hostOps3 (W6 m ρ c) (Proc.devRef .tc main_v91) = _
  dsimp only [hostOps3]; after_results_simp
  rw [W6_arg9]; rfl

/-! ## After the last call -/

/-- The program's result buffer at the last boundary holds the class scores. -/
theorem result : (W8 m ρ c (Proc.devRef .tc main_v92) : S20000x3.Idx → EReal) = out m c := by
  refine (W8_arr m ρ c 3).trans ((Region3.final (V7 m ρ) c).trans ?_)
  rw [V7_v89, V7_v90, V7_v91]; rfl

end Cert.KernelIdeal.Chain

end
-- ==== Proof.Network.lean ====
/-
  The whole network as one function of the ten argument arrays, on the extended reals:

    h0  = max (x · W_embed + b_embed, 0)
    h1  = aggregate (h0 · W1) + b1
    h2  = aggregate (h1 · W2) + b2
    out = h2 · W_cls + b_cls

  where `aggregate` is the graph convolution's normalised sum over the edges (self loops included) landing on each node.
  Both programs are shown to end with their result array at this function of their arguments.
-/
import proofs.«154297_j86698209837427_1_alg».proof.Proof.HostGlue
import proofs.«154297_j86698209837427_1_alg».proof.Proof.Linear

noncomputable section

namespace Cert.Network

open Cert.KernelIdeal Cert.KernelIdeal.Gen Cert.KernelIdeal.Glue Cert.Linear ChebAlgebra Idealize.ShloMosaic

/-- The class scores of every node, from the node features, the edge list and the four layers' weights and biases. -/
def net (x : S20000x256.Idx → EReal) (ei : (⟨S2x320000, .i32⟩ : BufTy).Contents (Elt Ideal))
    (We : S256x256.Idx → EReal) (be : S256.Idx → EReal) (W1 : S256x256.Idx → EReal) (b1 : S256.Idx → EReal)
    (W2 : S256x256.Idx → EReal) (b2 : S256.Idx → EReal) (Wc : S256x3.Idx → EReal) (bc : S3.Idx → EReal) :
    S20000x3.Idx → EReal :=
  affine
    (agg (srcOf ei) (dstOf ei) (dinvOf (dstOf ei))
      (mm (agg (srcOf ei) (dstOf ei) (dinvOf (dstOf ei))
        (mm (affineRelu x We (shapeCast S1x256 be shapeCasts_S256_S1x256)) W1) b1) W2) b2)
    Wc (shapeCast S1x3 bc shapeCasts_S3_S1x3)

end Cert.Network

end
-- ==== Proof.KernelValue.lean ====
/-
  The kernel program's run with its result at the network function of the arguments: the run with the result buffer
  named, and that buffer's contents at the last boundary read back through the four calls and the host stretches
  between them.
-/
import proofs.«154297_j86698209837427_1_alg».proof.Proof.RunResult
import proofs.«154297_j86698209837427_1_alg».proof.Proof.Chain
import proofs.«154297_j86698209837427_1_alg».proof.Proof.Network

set_option maxRecDepth 16384

noncomputable section

namespace Cert.KernelIdeal.KernelValue

open Cert.KernelIdeal Cert.KernelIdeal.Gen
open Idealize.ShloMosaic Idealize.ShloMosaic.TcCoe Idealize.SL.Sem
open Cert.Network

/-- The class scores read boundary by boundary are the network function of the launch memory's argument arrays. -/
theorem out_eq_net (m : (ℓ : Loc nD τ sig) → Buf (Elt Ideal) ℓ) (c : Dev nD) :
    Chain.out m c
      = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := rfl

/-- Every weakly fair execution of the kernel's program terminates without a fault, its result at the network function
    of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v92)
          = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono
    (fun r h c => ⟨(h c).1.trans ((Chain.result m ρ c).trans (out_eq_net m c)), (h c).2⟩)
    (RunResult.run m ρ)

end Cert.KernelIdeal.KernelValue

end
-- ==== Proof.RefValue.lean ====
/-
  The reference program's result is the network function of its arguments.

  The reference computes everything on the host: the same graph glue as the kernel's program, and each dense layer as a
  `dot_general` followed by a broadcast bias (and, for the embedding, a maximum with a broadcast zero). Its run's result
  term is first regrouped — the graph glue named by the shared functions, nothing opened — and then each dense layer is
  rewritten as the sum it denotes.
-/
import proofs.«154297_j86698209837427_1_alg».proof.Proof.Gen.ReferenceIdeal.Run
import proofs.«154297_j86698209837427_1_alg».proof.Proof.Network

set_option maxRecDepth 16384

noncomputable section

namespace Cert.ReferenceIdeal.RefValue

open Cert.ReferenceIdeal Cert.ReferenceIdeal.Gen Cert.ReferenceIdeal.Value
open Idealize.ShloMosaic Idealize.ShloMosaic.TcCoe Idealize.SL.Sem
open Cert.KernelIdeal.Glue Cert.Linear ChebAlgebra Cert.Network

/-- The reference's result with the graph glue named: four host layers around two aggregations. -/
def hostNet (x : (⟨S20000x256, .f32⟩ : BufTy).Contents (Elt Ideal)) (ei : (⟨S2x320000, .i32⟩ : BufTy).Contents (Elt Ideal))
    (We : (⟨S256x256, .f32⟩ : BufTy).Contents (Elt Ideal)) (be : (⟨S256, .f32⟩ : BufTy).Contents (Elt Ideal))
    (W1 : (⟨S256x256, .f32⟩ : BufTy).Contents (Elt Ideal)) (b1 : (⟨S256, .f32⟩ : BufTy).Contents (Elt Ideal))
    (W2 : (⟨S256x256, .f32⟩ : BufTy).Contents (Elt Ideal)) (b2 : (⟨S256, .f32⟩ : BufTy).Contents (Elt Ideal))
    (Wc : (⟨S256x3, .f32⟩ : BufTy).Contents (Elt Ideal)) (bc : (⟨S3, .f32⟩ : BufTy).Contents (Elt Ideal)) :
    (⟨S20000x3, .f32⟩ : BufTy).Contents (Elt Ideal) :=
  addf (F := Ideal) (φ := .f32)
    (Host.dotGeneral (F := Ideal) (φ₁ := .f32) (φ₂ := .f32) dot_S20000x256_S256x3_S20000x3_1_0_0_1_n_n none
      (agg (srcOf ei) (dstOf ei) (dinvOf (dstOf ei))
        (Host.dotGeneral (F := Ideal) (φ₁ := .f32) (φ₂ := .f32) dot_S20000x256_S256x256_S20000x256_1_0_0_1_n_n none
          (agg (srcOf ei) (dstOf ei) (dinvOf (dstOf ei))
            (Host.dotGeneral (F := Ideal) (φ₁ := .f32) (φ₂ := .f32) dot_S20000x256_S256x256_S20000x256_1_0_0_1_n_n none
              (maximumf (F := Ideal) (φ := .f32)
                (addf (F := Ideal) (φ := .f32) (Host.dotGeneral (F := Ideal) (φ₁ := .f32) (φ₂ := .f32) dot_S20000x256_S256x256_S20000x256_1_0_0_1_n_n none x We)
                  (broadcastInDim S20000x256 ![0, 1] bcast_S1x256_S20000x256_0_1 (broadcastInDim S1x256 ![1] bcast_S256_S1x256_1 be)))
                (broadcastInDim S20000x256 ![] bcast_S_S20000x256 (constant (F := Ideal) S_ .f32 0x00000000#32)))
              W1)
            b1)
          W2)
        b2)
      Wc)
    (broadcastInDim S20000x3 ![0, 1] bcast_S1x3_S20000x3_0_1 (broadcastInDim S1x3 ![1] bcast_S3_S1x3_1 bc))

/-- The run's result term is that regrouping, by unfolding the names only. -/
theorem res_eq_hostNet (m : (ℓ : Loc nD τ sig) → Buf (Elt Ideal) ℓ) (c : Dev nD) :
    res_main_v89 (F := Ideal) m c
      = hostNet (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold res_main_v89
  rfl

/-- Each host layer is the sum it denotes: the regrouped result is the network function. -/
theorem hostNet_eq_net (x : (⟨S20000x256, .f32⟩ : BufTy).Contents (Elt Ideal)) (ei : (⟨S2x320000, .i32⟩ : BufTy).Contents (Elt Ideal))
    (We : (⟨S256x256, .f32⟩ : BufTy).Contents (Elt Ideal)) (be : (⟨S256, .f32⟩ : BufTy).Contents (Elt Ideal))
    (W1 : (⟨S256x256, .f32⟩ : BufTy).Contents (Elt Ideal)) (b1 : (⟨S256, .f32⟩ : BufTy).Contents (Elt Ideal))
    (W2 : (⟨S256x256, .f32⟩ : BufTy).Contents (Elt Ideal)) (b2 : (⟨S256, .f32⟩ : BufTy).Contents (Elt Ideal))
    (Wc : (⟨S256x3, .f32⟩ : BufTy).Contents (Elt Ideal)) (bc : (⟨S3, .f32⟩ : BufTy).Contents (Elt Ideal)) :
    hostNet x ei We be W1 b1 W2 b2 Wc bc = net x ei We be W1 b1 W2 b2 Wc bc := by
  unfold hostNet net
  rw [host_affineRelu dot_S20000x256_S256x256_S20000x256_1_0_0_1_n_n rfl rfl rfl rfl rfl rfl x We be
      bcast_S256_S1x256_1 bcast_S1x256_S20000x256_0_1 Cert.KernelIdeal.Gen.shapeCasts_S256_S1x256 bcast_S_S20000x256]
  rw [HostForms.dotGeneral_eq_mm dot_S20000x256_S256x256_S20000x256_1_0_0_1_n_n rfl rfl rfl rfl rfl rfl none _ W1]
  rw [HostForms.dotGeneral_eq_mm dot_S20000x256_S256x256_S20000x256_1_0_0_1_n_n rfl rfl rfl rfl rfl rfl none _ W2]
  exact host_affine dot_S20000x256_S256x3_S20000x3_1_0_0_1_n_n rfl rfl rfl rfl rfl rfl _ Wc bc
    bcast_S3_S1x3_1 bcast_S1x3_S20000x3_0_1 Cert.KernelIdeal.Gen.shapeCasts_S3_S1x3

/-- The reference's run with its result at the network function of the arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v89)
          = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans ((res_eq_hostNet m c).trans (hostNet_eq_net _ _ _ _ _ _ _ _ _ _)), (h c).2⟩)
    (Cert.ReferenceIdeal.Value.run (F := Ideal) m ρ)

end Cert.ReferenceIdeal.RefValue

end
-- ==== Proof.lean ====
/-
  The certificate of the graph network: a rectified embedding layer, two graph convolutions and a classifier layer.

  The kernel's program computes the four dense products in four pallas_calls, each tiling the `20000` node rows into five
  blocks of `4000`, and everything else — the self loops, the degrees, the gather of source rows and the scatter-add onto
  destination rows — on the host, with the very operations the reference uses. On the extended reals a change of float
  format is the identity and a tiled product into a zero accumulator is the plain sum, so both programs end with the
  network function `Cert.Network.net` of their arguments: the kernel's program by reading its result buffer back
  through the chain of calls and host stretches (`KernelValue.run`), the reference by regrouping its run's result term
  (`RefValue.run`). No law of arithmetic that needs finite operands is used, so the precondition is never opened. The
  three frames are the generated ones (the reference's is its generated run with the result dropped), and the
  idealization rewrote nothing.
-/
import proofs.«154297_j86698209837427_1_alg».proof.Defs
import proofs.«154297_j86698209837427_1_alg».proof.Proof.Gen.Kernel
import proofs.«154297_j86698209837427_1_alg».proof.Proof.Gen.Kernel.Skeleton
import proofs.«154297_j86698209837427_1_alg».proof.Proof.Gen.Kernel.Launch
import proofs.«154297_j86698209837427_1_alg».proof.Proof.Gen.Kernel.Points
import proofs.«154297_j86698209837427_1_alg».proof.Proof.Gen.Kernel.Frame
import proofs.«154297_j86698209837427_1_alg».proof.Proof.Gen.KernelIdeal
import proofs.«154297_j86698209837427_1_alg».proof.Proof.Gen.KernelIdeal.Skeleton
import proofs.«154297_j86698209837427_1_alg».proof.Proof.Gen.KernelIdeal.Launch
import proofs.«154297_j86698209837427_1_alg».proof.Proof.Gen.KernelIdeal.Points
import proofs.«154297_j86698209837427_1_alg».proof.Proof.Gen.KernelIdeal.Frame
import proofs.«154297_j86698209837427_1_alg».proof.Proof.Gen.ReferenceIdeal
import proofs.«154297_j86698209837427_1_alg».proof.Proof.Gen.ReferenceIdeal.Run
import proofs.«154297_j86698209837427_1_alg».proof.Proof.Gen.Pre_finite_inputs
import proofs.«154297_j86698209837427_1_alg».proof.Proof.KernelValue
import proofs.«154297_j86698209837427_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs, from memories that agree on the arguments, end with the network function of the arguments
    in their result buffers. -/
theorem algebraic : Cert.algebraic_KernelIdeal_ReferenceIdeal := by
  intro m ρ m' ρ' _ hagree
  refine ⟨fun c => Cert.Network.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    Cert.KernelIdeal.KernelValue.run m ρ, ?_⟩
  refine (θ_run Cert.ReferenceIdeal.defs _ _).mono (fun _ h c => ⟨(h c).1.trans ?_, (h c).2⟩)
    (Cert.ReferenceIdeal.RefValue.run m' ρ')
  obtain ⟨e0, e1, e2, e3, e4, e5, e6, e7, e8, e9⟩ := hagree c
  rw [e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
